-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S10000x512 .f32) (main_arg1 : FVec F S10000x10000 .f32) (main_arg2 : FVec F S512x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S10000x1 : Shape := ⟨2, ![10000, 1]⟩
abbrev S400x10000 : Shape := ⟨2, ![400, 10000]⟩
abbrev S400x512 : Shape := ⟨2, ![400, 512]⟩
abbrev S400x1 : Shape := ⟨2, ![400, 1]⟩
abbrev S400 : Shape := ⟨1, ![400]⟩
abbrev S1x10000 : Shape := ⟨2, ![1, 10000]⟩

abbrev nBuf : Space → Nat
  | .hbm => 17
  | .vmem => 30
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S1x512, .f32⟩
  | .hbm, ⟨9, _⟩ => ⟨S1x512, .f32⟩
  | .hbm, ⟨10, _⟩ => ⟨S1x1, .f32⟩
  | .hbm, ⟨11, _⟩ => ⟨S10000x1, .f32⟩
  | .hbm, ⟨12, _⟩ => ⟨S10000x512, .bf16⟩
  | .hbm, ⟨13, _⟩ => ⟨S1x10000, .f32⟩
  | .hbm, ⟨14, _⟩ => ⟨S512x512, .bf16⟩
  | .hbm, ⟨15, _⟩ => ⟨S10000x512, .bf16⟩
  | .hbm, ⟨16, _⟩ => ⟨S10000x1, .f32⟩
  | .local _ .vmem, ⟨0, _⟩ => ⟨S400x10000, .f32⟩
  | .local _ .vmem, ⟨1, _⟩ => ⟨S400x10000, .f32⟩
  | .local _ .vmem, ⟨2, _⟩ => ⟨S400x512, .f32⟩
  | .local _ .vmem, ⟨3, _⟩ => ⟨S400x512, .f32⟩
  | .local _ .vmem, ⟨4, _⟩ => ⟨S512x512, .f32⟩
  | .local _ .vmem, ⟨5, _⟩ => ⟨S400x1, .f32⟩
  | .local _ .vmem, ⟨6, _⟩ => ⟨S400x1, .f32⟩
  | .local _ .vmem, ⟨7, _⟩ => ⟨S400x512, .bf16⟩
  | .local _ .vmem, ⟨8, _⟩ => ⟨S400x512, .bf16⟩
  | .local _ .vmem, ⟨9, _⟩ => ⟨S400x10000, .f32⟩
  | .local _ .vmem, ⟨10, _⟩ => ⟨S400x10000, .f32⟩
  | .local _ .vmem, ⟨11, _⟩ => ⟨S400x1, .f32⟩
  | .local _ .vmem, ⟨12, _⟩ => ⟨S400x1, .f32⟩
  | .local _ .vmem, ⟨13, _⟩ => ⟨S1x10000, .f32⟩
  | .local _ .vmem, ⟨14, _⟩ => ⟨S10000x512, .bf16⟩
  | .local _ .vmem, ⟨15, _⟩ => ⟨S1x512, .f32⟩
  | .local _ .vmem, ⟨16, _⟩ => ⟨S512x512, .bf16⟩
  | .local _ .vmem, ⟨17, _⟩ => ⟨S400x512, .bf16⟩
  | .local _ .vmem, ⟨18, _⟩ => ⟨S400x512, .bf16⟩
  | .local _ .vmem, ⟨19, _⟩ => ⟨S400x10000, .f32⟩
  | .local _ .vmem, ⟨20, _⟩ => ⟨S400x10000, .f32⟩
  | .local _ .vmem, ⟨21, _⟩ => ⟨S400x1, .f32⟩
  | .local _ .vmem, ⟨22, _⟩ => ⟨S400x1, .f32⟩
  | .local _ .vmem, ⟨23, _⟩ => ⟨S1x10000, .f32⟩
  | .local _ .vmem, ⟨24, _⟩ => ⟨S10000x512, .bf16⟩
  | .local _ .vmem, ⟨25, _⟩ => ⟨S1x512, .f32⟩
  | .local _ .vmem, ⟨26, _⟩ => ⟨S512x1, .f32⟩
  | .local _ .vmem, ⟨27, _⟩ => ⟨S1x1, .f32⟩
  | .local _ .vmem, ⟨28, _⟩ => ⟨S400x1, .f32⟩
  | .local _ .vmem, ⟨29, _⟩ => ⟨S400x1, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x10000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x10000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10000x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S400x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S512_S1x512 : S512.ShapeCasts S1x512
  shapeCasts_S1_S1x1 : S1.ShapeCasts S1x1
  inb_S400x10000_S400x10000_0_0 : ∀ a, (![0, 0] : Fin 2 → Nat) a + S400x10000.size a ≤ S400x10000.size a
  h_S400x10000 : 0 < S400x10000.numel
  reduces_S400x10000_S400 : S400x10000.Reduces [1] S400
  shapeCasts_S400_S400x1 : S400.ShapeCasts S400x1
  inb_S400x1_S400x1_0_0 : ∀ a, (![0, 0] : Fin 2 → Nat) a + S400x1.size a ≤ S400x1.size a
  h_S400x1 : 0 < S400x1.numel
  inb_S400x512_S400x512_0_0 : ∀ a, (![0, 0] : Fin 2 → Nat) a + S400x512.size a ≤ S400x512.size a
  h_S400x512 : 0 < S400x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S400x512_S400x512_0_0 : (Rect.unit (s := S400x512) ![0, 0] S400x512.size inb_S400x512_S400x512_0_0).PackedRows (EltTy.packing .bf16)
  shapeCasts_S10000x1_S1x10000 : S10000x1.ShapeCasts S1x10000
  shapeCasts_S400x1_S400x1 : S400x1.ShapeCasts S400x1
  broadcasts_S400x1_S400x10000 : S400x1.Broadcasts S400x10000
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S1x10000_S400x10000 : S1x10000.Broadcasts S400x10000
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  shapeCasts_S512x512_S512x512 : S512x512.ShapeCasts S512x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  dot_S400x512_S512x512_S400x512_1_0_0_1_n_n_wf : DotDims.WF S400x512 S512x512 S400x512 [1] [0] [0] [1] [] []
  dot_S400x10000_S10000x512_S400x512_1_0_0_1_n_n_wf : DotDims.WF S400x10000 S10000x512 S400x512 [1] [0] [0] [1] [] []
  dot_S400x512_S512x1_S400x1_1_0_0_1_n_n_wf : DotDims.WF S400x512 S512x1 S400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x512.size a ≤ S10000x512.size a
  hwx0_1 : ∀ i : grid0.Coords, EltTy.bits .f32 = 32 ∨ (Rect.block (s := S10000x512) S400x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1.size a ≤ S10000x1.size a
  hwx0_3 : ∀ i : grid0.Coords, EltTy.bits .f32 = 32 ∨ (Rect.block (s := S10000x1) S400x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x512.size a ≤ S10000x512.size a
  hwx0_4 : ∀ i : grid0.Coords, EltTy.bits .bf16 = 32 ∨ (Rect.block (s := S10000x512) S400x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x1.size a ≤ S10000x1.size a
  hwx1_1 : ∀ i : grid1.Coords, EltTy.bits .f32 = 32 ∨ (Rect.block (s := S10000x1) S400x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10000.size a ≤ S1x10000.size a
  hwx1_2 : ∀ i : grid1.Coords, EltTy.bits .f32 = 32 ∨ (Rect.block (s := S1x10000) S1x10000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x512.size a ≤ S10000x512.size a
  hwx1_3 : ∀ i : grid1.Coords, EltTy.bits .bf16 = 32 ∨ (Rect.block (s := S10000x512) S10000x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x512.size a ≤ S10000x512.size a
  hwx1_6 : ∀ i : grid1.Coords, EltTy.bits .bf16 = 32 ∨ (Rect.block (s := S10000x512) S400x512.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x1.size a ≤ S10000x1.size a
  hwx2_1 : ∀ i : grid2.Coords, EltTy.bits .f32 = 32 ∨ (Rect.block (s := S10000x1) S400x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10000.size a ≤ S1x10000.size a
  hwx2_2 : ∀ i : grid2.Coords, EltTy.bits .f32 = 32 ∨ (Rect.block (s := S1x10000) S1x10000.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10000x512.size a ≤ S10000x512.size a
  hwx2_3 : ∀ i : grid2.Coords, EltTy.bits .bf16 = 32 ∨ (Rect.block (s := S10000x512) S10000x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S512x1.size a
  hwx2_5 : ∀ i : grid2.Coords, EltTy.bits .f32 = 32 ∨ (Rect.block (s := S512x1) S512x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S400x1.size a ≤ S10000x1.size a
  hwx2_7 : ∀ i : grid2.Coords, EltTy.bits .f32 = 32 ∨ (Rect.block (s := S10000x1) S400x1.size (cc2_transform_7 i) (hinb2_7 i)).WholeWords (EltTy.packing .f32)

variable [Facts₀]

def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x1_S400x1_1_0_0_1_n_n : DotDims S400x512 S512x1 S400x1 where
  lhsContracting := [1]
  rhsContracting := [0]
  lhsNonContracting := [0]
  rhsNonContracting := [1]
  lhsBatch := []
  rhsBatch := []
  wf := dot_S400x512_S512x1_S400x1_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S400x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S400x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S400x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x10000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S10000x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S400x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_0) S400x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x10000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S10000x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S512x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v2) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S400x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S1x512 : Shape := ⟨2, ![1, 512]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S_, .f32⟩
  | .hbm, ⟨9, _⟩ => ⟨S10000, .f32⟩
  | .hbm, ⟨10, _⟩ => ⟨S_, .f32⟩
  | .hbm, ⟨11, _⟩ => ⟨S10000, .f32⟩
  | .hbm, ⟨12, _⟩ => ⟨S10000, .f32⟩
  | .hbm, ⟨13, _⟩ => ⟨S10000, .f32⟩
  | .hbm, ⟨14, _⟩ => ⟨S10000x1, .f32⟩
  | .hbm, ⟨15, _⟩ => ⟨S10000x10000, .f32⟩
  | .hbm, ⟨16, _⟩ => ⟨S10000x10000, .f32⟩
  | .hbm, ⟨17, _⟩ => ⟨S1x10000, .f32⟩
  | .hbm, ⟨18, _⟩ => ⟨S10000x10000, .f32⟩
  | .hbm, ⟨19, _⟩ => ⟨S10000x10000, .f32⟩
  | .hbm, ⟨20, _⟩ => ⟨S10000x512, .f32⟩
  | .hbm, ⟨21, _⟩ => ⟨S10000x512, .f32⟩
  | .hbm, ⟨22, _⟩ => ⟨S1x512, .f32⟩
  | .hbm, ⟨23, _⟩ => ⟨S10000x512, .f32⟩
  | .hbm, ⟨24, _⟩ => ⟨S10000x512, .f32⟩
  | .hbm, ⟨25, _⟩ => ⟨S_, .f32⟩
  | .hbm, ⟨26, _⟩ => ⟨S10000x512, .f32⟩
  | .hbm, ⟨27, _⟩ => ⟨S10000x512, .f32⟩
  | .hbm, ⟨28, _⟩ => ⟨S10000x512, .f32⟩
  | .hbm, ⟨29, _⟩ => ⟨S10000x512, .f32⟩
  | .hbm, ⟨30, _⟩ => ⟨S1x512, .f32⟩
  | .hbm, ⟨31, _⟩ => ⟨S10000x512, .f32⟩
  | .hbm, ⟨32, _⟩ => ⟨S10000x512, .f32⟩
  | .hbm, ⟨33, _⟩ => ⟨S_, .f32⟩
  | .hbm, ⟨34, _⟩ => ⟨S10000x512, .f32⟩
  | .hbm, ⟨35, _⟩ => ⟨S10000x512, .f32⟩
  | .hbm, ⟨36, _⟩ => ⟨S10000x1, .f32⟩
  | .hbm, ⟨37, _⟩ => ⟨S1x1, .f32⟩
  | .hbm, ⟨38, _⟩ => ⟨S10000x1, .f32⟩
  | .hbm, ⟨39, _⟩ => ⟨S10000x1, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_cst : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []
  dot_S10000x512_S512x1_S10000x1_1_0_0_1_n_n_wf : DotDims.WF S10000x512 S512x1 S10000x1 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x1_S10000x1_1_0_0_1_n_n : DotDims S10000x512 S512x1 S10000x1 where
  lhsContracting := [1]
  rhsContracting := [0]
  lhsNonContracting := [0]
  rhsNonContracting := [1]
  lhsBatch := []
  rhsBatch := []
  wf := dot_S10000x512_S512x1_S10000x1_1_0_0_1_n_n_wf

class Facts : Prop extends Facts₀ where

variable [Facts]
-- ==== Proof.KernelRun.lean ====
/-
  The idealized kernel's run, with its result array named.

  The program is three grid launches separated by short stretches of host operations. The generated frame
  follows the contents of every unscoped buffer through these five segments: `W1` after the first host
  stretch, `W2` after the first launch, `W3` after the second host stretch, `W4` and `W5` after the second
  and third launches. Its last thread state holds every unscoped buffer at `W5`; the frame reads only the
  arguments out of it. Here the same launch is read once more, this time also at the result buffer: every
  weakly fair execution ends with the result array equal to `W5` at that buffer and the arguments as launched.
  What `W5` holds there, as a function of the arguments, is the subject of the modules that follow.
-/
import proofs.«102826_g53249004536087_cont_9to1_m_742_18_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; its result array then holds what
    the last segment boundary's contents `W5` hold at the result buffer, and the eight arguments are unchanged. -/
theorem run_result : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Bridge

end
-- ==== Proof.Passes.lean ====
/-
  The three passes of the two-layer graph convolution, each as ONE function of whole arrays over the extended reals.

  Write A for the adjacency matrix, d_i = rsqrt (sum_k A_ik + eps) for the inverse square root of the degree of
  row i, and N_ij = (A_ij * d_i) * d_j for the symmetrically normalised adjacency. A layer is
  relu (N @ V + b) = max (sum_j N_ij V_jq + b_q) 0, a dense product is (X @ W)_pq = sum_k X_pk W_kq, and the
  head is H @ Wp + bp. Every definition below is row-local: row p of the result depends on row p of the
  row-indexed operands only (and on the whole of the operands shared by all rows). That is what lets a grid of
  row blocks compute the whole array, and the lemmas at the end say it: a block of rows taken from the operands
  gives the corresponding rows of the result.

  The number of rows is a parameter (400 for a block, 10000 for the array); all other extents are literal.
-/
import Idealize.ShloMosaic.PureOps.Ideal
import Idealize.ShloMosaic.PureOps.Ideal.Laws
import Idealize.ShloMosaic.Lib.ValueIdx

noncomputable section

namespace Cert.Bridge

open Idealize.ShloMosaic Idealize.ShloMosaic.ValueIdx

/-- A two-axis array of extended reals. -/
abbrev Arr2 (a b : Nat) : Type := (⟨2, ![a, b]⟩ : Shape).Idx → EReal

/-- A one-axis array of extended reals. -/
abbrev Arr1 (a : Nat) : Type := (⟨1, ![a]⟩ : Shape).Idx → EReal

/-- The array whose entry at (p, q) is `f p q`. -/
def ofCoords {a b : Nat} (f : Fin a → Fin b → EReal) : Arr2 a b :=
  fun i => f ⟨(i 0).val, idx2_lt0 i⟩ ⟨(i 1).val, idx2_lt1 i⟩

theorem ofCoords_ix2 {a b : Nat} (f : Fin a → Fin b → EReal) (p : Fin a) (q : Fin b) :
    ofCoords f (ix2 p q) = f p q := rfl

/-- Two arrays agree when they agree at every pair of coordinates. -/
theorem arr2_ext {a b : Nat} {x y : Arr2 a b} (h : ∀ (p : Fin a) (q : Fin b), x (ix2 p q) = y (ix2 p q)) : x = y :=
  funext fun i => by rw [eq_ix2 i]; exact h _ _

/-- The constant added to a degree before the inverse square root: the single-precision value nearest 1e-9. -/
def eps : EReal := Ideal.ofBits .f32 0x3089705F#32

/-- The degree of row `p`: the sum of its entries. -/
def deg {n : Nat} (adj : Arr2 n 10000) (p : Fin n) : EReal := ∑ k : Fin 10000, adj (ix2 p k)

/-- The inverse square root of the degree of row `p`, shifted by `eps`. -/
def dinv {n : Nat} (adj : Arr2 n 10000) (p : Fin n) : EReal := Ideal.rsqrt (deg adj p + eps)

/-- The inverse square roots of the degrees as a column. -/
def dinvCol {n : Nat} (adj : Arr2 n 10000) : Arr2 n 1 := ofCoords fun p _ => dinv adj p

/-- The inverse square roots of the degrees as a row. -/
def dinvRow (adj : Arr2 10000 10000) : Arr2 1 10000 := ofCoords fun _ j => dinv adj j

/-- A dense product: (X @ W)_pq = sum_k X_pk W_kq. -/
def dense {n K H : Nat} (x : Arr2 n K) (w : Arr2 K H) : Arr2 n H :=
  ofCoords fun p q => ∑ k : Fin K, x (ix2 p k) * w (ix2 k q)

/-- One propagation layer, from the adjacency rows, the column and the row of inverse square roots of degrees, the
    features and the bias: max (sum_j ((A_pj * dc_p) * dr_j) V_jq + b_q) 0. -/
def layer {n : Nat} (adj : Arr2 n 10000) (dc : Arr2 n 1) (dr : Arr2 1 10000) (v : Arr2 10000 512) (b : Arr2 1 512) : Arr2 n 512 :=
  ofCoords fun p q => max ((∑ j : Fin 10000, ((adj (ix2 p j) * dc (ix2 p 0)) * dr (ix2 0 j)) * v (ix2 j q)) + b (ix2 0 q)) 0

/-- The linear head: H @ Wp + bp. -/
def head {n : Nat} (h : Arr2 n 512) (wp : Arr2 512 1) (bp : Arr2 1 1) : Arr2 n 1 :=
  ofCoords fun p q => (∑ k : Fin 512, h (ix2 p k) * wp (ix2 k q)) + bp (ix2 0 0)

/-- A vector laid out as one row. -/
def rowOf {a : Nat} (b : Arr1 a) : Arr2 1 a := ofCoords fun _ q => b (ix1 q)

/-- A one-entry vector laid out as a one-by-one array. -/
def cellOf (b : Arr1 1) : Arr2 1 1 := ofCoords fun _ _ => b (ix1 0)

/-! ## Row locality -/

section Rows

variable {n N : Nat} (r : Fin n → Fin N)

/-- The inverse square root of a row's degree depends on that row only. -/
theorem dinv_rows (adj : Arr2 N 10000) (x0 : Arr2 n 10000)
    (h0 : ∀ p j, x0 (ix2 p j) = adj (ix2 (r p) j)) (p : Fin n) : dinv x0 p = dinv adj (r p) := by
  unfold dinv deg
  exact congrArg (fun s => Ideal.rsqrt (s + eps)) (Finset.sum_congr rfl fun k _ => h0 p k)

theorem dinvCol_rows (adj : Arr2 N 10000) (x0 : Arr2 n 10000)
    (h0 : ∀ p j, x0 (ix2 p j) = adj (ix2 (r p) j)) (p : Fin n) (q : Fin 1) :
    dinvCol x0 (ix2 p q) = dinvCol adj (ix2 (r p) q) := by
  unfold dinvCol
  rw [ofCoords_ix2, ofCoords_ix2]
  exact dinv_rows r adj x0 h0 p

/-- Rows of a dense product are the products of the rows. -/
theorem dense_rows {K H : Nat} (x : Arr2 N K) (w : Arr2 K H) (x0 : Arr2 n K)
    (h0 : ∀ p k, x0 (ix2 p k) = x (ix2 (r p) k)) (p : Fin n) (q : Fin H) :
    dense x0 w (ix2 p q) = dense x w (ix2 (r p) q) := by
  unfold dense
  rw [ofCoords_ix2, ofCoords_ix2]
  exact Finset.sum_congr rfl fun k _ => by rw [h0 p k]

/-- Rows of a layer come from the same rows of the adjacency and of the column of inverse square roots. -/
theorem layer_rows (adj : Arr2 N 10000) (dc : Arr2 N 1) (dr : Arr2 1 10000) (v : Arr2 10000 512) (b : Arr2 1 512)
    (x0 : Arr2 n 10000) (x1 : Arr2 n 1)
    (h0 : ∀ p j, x0 (ix2 p j) = adj (ix2 (r p) j)) (h1 : ∀ p, x1 (ix2 p 0) = dc (ix2 (r p) 0)) (p : Fin n) (q : Fin 512) :
    layer x0 x1 dr v b (ix2 p q) = layer adj dc dr v b (ix2 (r p) q) := by
  unfold layer
  rw [ofCoords_ix2, ofCoords_ix2]
  refine congrArg (fun s => max (s + b (ix2 0 q)) 0) (Finset.sum_congr rfl fun j _ => ?_)
  rw [h0 p j, h1 p]

/-- Rows of the head come from the same rows of its input. -/
theorem head_rows (h : Arr2 N 512) (wp : Arr2 512 1) (bp : Arr2 1 1) (h0 : Arr2 n 512)
    (hh : ∀ p k, h0 (ix2 p k) = h (ix2 (r p) k)) (p : Fin n) (q : Fin 1) :
    head h0 wp bp (ix2 p q) = head h wp bp (ix2 (r p) q) := by
  unfold head
  rw [ofCoords_ix2, ofCoords_ix2]
  exact congrArg (· + bp (ix2 0 0)) (Finset.sum_congr rfl fun k _ => by rw [hh p k])

end Rows

end Cert.Bridge

end
-- ==== Proof.Payloads.lean ====
/-
  What each grid point computes, as a function of the blocks it loads: the stored value of each of the three
  passes, read over the extended reals, is the corresponding pass function of `Passes` applied to the blocks.
-/
import proofs.«102826_g53249004536087_cont_9to1_m_742_18_alg».proof.Proof.Gen.KernelIdeal.Skeleton
import proofs.«102826_g53249004536087_cont_9to1_m_742_18_alg».proof.Proof.Passes
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bridge

open Cert.KernelIdeal Cert.KernelIdeal.Gen Cert.Bridge
open Idealize.ShloMosaic Idealize.ShloMosaic.ValueIdx

/-- The product of a 400 by 512 array and a 512 by 512 array, accumulated into zero, at the entry (p, q): the sum over k of l(p, k) * r(k, q). -/
theorem matmul_512_512_apply {φ₁ φ₂ : FTy} (l : FVec Ideal S400x512 φ₁) (r : FVec Ideal S512x512 φ₂) (p : Fin 400) (q : Fin 512) :
    matmul dot_S400x512_S512x512_S400x512_1_0_0_1_n_n none l r (constant (F := Ideal) S400x512 .f32 0x00000000#32) (ix2 p q)
      = ∑ k : Fin 512, l (ix2 p k) * r (ix2 k q) := by
  -- the operand indices of the product at the output index (p, q) and a contraction index c, coordinate by coordinate
  have l0 : ∀ c : dot_S400x512_S512x512_S400x512_1_0_0_1_n_n.contr.Idx, (dot_S400x512_S512x512_S400x512_1_0_0_1_n_n.lhsIdx (ix2 p q) c 0).val = p.val := fun c => by
    unfold DotDims.lhsIdx
    rw [dif_neg (show ¬(0 : Fin S400x512.rank) ∈ dot_S400x512_S512x512_S400x512_1_0_0_1_n_n.lhsBatch by decide),
      dif_pos (show (0 : Fin S400x512.rank) ∈ dot_S400x512_S512x512_S400x512_1_0_0_1_n_n.lhsNonContracting by decide)]
    rfl
  have l1 : ∀ c : dot_S400x512_S512x512_S400x512_1_0_0_1_n_n.contr.Idx, (dot_S400x512_S512x512_S400x512_1_0_0_1_n_n.lhsIdx (ix2 p q) c 1).val = (c ⟨0, by decide⟩).val := fun c =>
    dot_S400x512_S512x512_S400x512_1_0_0_1_n_n.lhsIdx_val_of_single rfl (ix2 p q) c
  have r0 : ∀ c : dot_S400x512_S512x512_S400x512_1_0_0_1_n_n.contr.Idx, (dot_S400x512_S512x512_S400x512_1_0_0_1_n_n.rhsIdx (ix2 p q) c 0).val = (c ⟨0, by decide⟩).val := fun c =>
    dot_S400x512_S512x512_S400x512_1_0_0_1_n_n.rhsIdx_val_of_single rfl (ix2 p q) c
  have r1 : ∀ c : dot_S400x512_S512x512_S400x512_1_0_0_1_n_n.contr.Idx, (dot_S400x512_S512x512_S400x512_1_0_0_1_n_n.rhsIdx (ix2 p q) c 1).val = q.val := fun c => by
    unfold DotDims.rhsIdx
    rw [dif_neg (show ¬(1 : Fin S512x512.rank) ∈ dot_S400x512_S512x512_S400x512_1_0_0_1_n_n.rhsBatch by decide),
      dif_pos (show (1 : Fin S512x512.rank) ∈ dot_S400x512_S512x512_S400x512_1_0_0_1_n_n.rhsNonContracting by decide)]
    rfl
  refine (Ideal.matmul_constant_zero_apply dot_S400x512_S512x512_S400x512_1_0_0_1_n_n none l r (ix2 p q)).trans ?_
  rw [← Equiv.sum_comp (contrEquiv1 dot_S400x512_S512x512_S400x512_1_0_0_1_n_n 512 rfl rfl).symm]
  refine Finset.sum_congr rfl fun k _ => ?_
  have hk := contrEquiv1_symm_val dot_S400x512_S512x512_S400x512_1_0_0_1_n_n 512 rfl rfl k
  have el : dot_S400x512_S512x512_S400x512_1_0_0_1_n_n.lhsIdx (ix2 p q) ((contrEquiv1 dot_S400x512_S512x512_S400x512_1_0_0_1_n_n 512 rfl rfl).symm k) = ix2 p k :=
    funext fun a => Fin.ext (by
      match a with
      | ⟨0, _⟩ => exact l0 _
      | ⟨1, _⟩ => exact (l1 _).trans hk)
  have er : dot_S400x512_S512x512_S400x512_1_0_0_1_n_n.rhsIdx (ix2 p q) ((contrEquiv1 dot_S400x512_S512x512_S400x512_1_0_0_1_n_n 512 rfl rfl).symm k) = ix2 k q :=
    funext fun a => Fin.ext (by
      match a with
      | ⟨0, _⟩ => exact (r0 _).trans hk
      | ⟨1, _⟩ => exact r1 _)
  rw [el, er]

/-- The product of a 400 by 10000 array and a 10000 by 512 array, accumulated into zero, at the entry (p, q): the sum over j of l(p, j) * r(j, q). -/
theorem matmul_10000_512_apply {φ₁ φ₂ : FTy} (l : FVec Ideal S400x10000 φ₁) (r : FVec Ideal S10000x512 φ₂) (p : Fin 400) (q : Fin 512) :
    matmul dot_S400x10000_S10000x512_S400x512_1_0_0_1_n_n none l r (constant (F := Ideal) S400x512 .f32 0x00000000#32) (ix2 p q)
      = ∑ k : Fin 10000, l (ix2 p k) * r (ix2 k q) := by
  -- the operand indices of the product at the output index (p, q) and a contraction index c, coordinate by coordinate
  have l0 : ∀ c : dot_S400x10000_S10000x512_S400x512_1_0_0_1_n_n.contr.Idx, (dot_S400x10000_S10000x512_S400x512_1_0_0_1_n_n.lhsIdx (ix2 p q) c 0).val = p.val := fun c => by
    unfold DotDims.lhsIdx
    rw [dif_neg (show ¬(0 : Fin S400x10000.rank) ∈ dot_S400x10000_S10000x512_S400x512_1_0_0_1_n_n.lhsBatch by decide),
      dif_pos (show (0 : Fin S400x10000.rank) ∈ dot_S400x10000_S10000x512_S400x512_1_0_0_1_n_n.lhsNonContracting by decide)]
    rfl
  have l1 : ∀ c : dot_S400x10000_S10000x512_S400x512_1_0_0_1_n_n.contr.Idx, (dot_S400x10000_S10000x512_S400x512_1_0_0_1_n_n.lhsIdx (ix2 p q) c 1).val = (c ⟨0, by decide⟩).val := fun c =>
    dot_S400x10000_S10000x512_S400x512_1_0_0_1_n_n.lhsIdx_val_of_single rfl (ix2 p q) c
  have r0 : ∀ c : dot_S400x10000_S10000x512_S400x512_1_0_0_1_n_n.contr.Idx, (dot_S400x10000_S10000x512_S400x512_1_0_0_1_n_n.rhsIdx (ix2 p q) c 0).val = (c ⟨0, by decide⟩).val := fun c =>
    dot_S400x10000_S10000x512_S400x512_1_0_0_1_n_n.rhsIdx_val_of_single rfl (ix2 p q) c
  have r1 : ∀ c : dot_S400x10000_S10000x512_S400x512_1_0_0_1_n_n.contr.Idx, (dot_S400x10000_S10000x512_S400x512_1_0_0_1_n_n.rhsIdx (ix2 p q) c 1).val = q.val := fun c => by
    unfold DotDims.rhsIdx
    rw [dif_neg (show ¬(1 : Fin S10000x512.rank) ∈ dot_S400x10000_S10000x512_S400x512_1_0_0_1_n_n.rhsBatch by decide),
      dif_pos (show (1 : Fin S10000x512.rank) ∈ dot_S400x10000_S10000x512_S400x512_1_0_0_1_n_n.rhsNonContracting by decide)]
    rfl
  refine (Ideal.matmul_constant_zero_apply dot_S400x10000_S10000x512_S400x512_1_0_0_1_n_n none l r (ix2 p q)).trans ?_
  rw [← Equiv.sum_comp (contrEquiv1 dot_S400x10000_S10000x512_S400x512_1_0_0_1_n_n 10000 rfl rfl).symm]
  refine Finset.sum_congr rfl fun k _ => ?_
  have hk := contrEquiv1_symm_val dot_S400x10000_S10000x512_S400x512_1_0_0_1_n_n 10000 rfl rfl k
  have el : dot_S400x10000_S10000x512_S400x512_1_0_0_1_n_n.lhsIdx (ix2 p q) ((contrEquiv1 dot_S400x10000_S10000x512_S400x512_1_0_0_1_n_n 10000 rfl rfl).symm k) = ix2 p k :=
    funext fun a => Fin.ext (by
      match a with
      | ⟨0, _⟩ => exact l0 _
      | ⟨1, _⟩ => exact (l1 _).trans hk)
  have er : dot_S400x10000_S10000x512_S400x512_1_0_0_1_n_n.rhsIdx (ix2 p q) ((contrEquiv1 dot_S400x10000_S10000x512_S400x512_1_0_0_1_n_n 10000 rfl rfl).symm k) = ix2 k q :=
    funext fun a => Fin.ext (by
      match a with
      | ⟨0, _⟩ => exact (r0 _).trans hk
      | ⟨1, _⟩ => exact r1 _)
  rw [el, er]

/-- The product of a 400 by 512 array and a 512 by 1 column, accumulated into zero, at the entry (p, q): the sum over k of l(p, k) * r(k, q). -/
theorem matmul_512_1_apply {φ₁ φ₂ : FTy} (l : FVec Ideal S400x512 φ₁) (r : FVec Ideal S512x1 φ₂) (p : Fin 400) (q : Fin 1) :
    matmul dot_S400x512_S512x1_S400x1_1_0_0_1_n_n none l r (constant (F := Ideal) S400x1 .f32 0x00000000#32) (ix2 p q)
      = ∑ k : Fin 512, l (ix2 p k) * r (ix2 k q) := by
  -- the operand indices of the product at the output index (p, q) and a contraction index c, coordinate by coordinate
  have l0 : ∀ c : dot_S400x512_S512x1_S400x1_1_0_0_1_n_n.contr.Idx, (dot_S400x512_S512x1_S400x1_1_0_0_1_n_n.lhsIdx (ix2 p q) c 0).val = p.val := fun c => by
    unfold DotDims.lhsIdx
    rw [dif_neg (show ¬(0 : Fin S400x512.rank) ∈ dot_S400x512_S512x1_S400x1_1_0_0_1_n_n.lhsBatch by decide),
      dif_pos (show (0 : Fin S400x512.rank) ∈ dot_S400x512_S512x1_S400x1_1_0_0_1_n_n.lhsNonContracting by decide)]
    rfl
  have l1 : ∀ c : dot_S400x512_S512x1_S400x1_1_0_0_1_n_n.contr.Idx, (dot_S400x512_S512x1_S400x1_1_0_0_1_n_n.lhsIdx (ix2 p q) c 1).val = (c ⟨0, by decide⟩).val := fun c =>
    dot_S400x512_S512x1_S400x1_1_0_0_1_n_n.lhsIdx_val_of_single rfl (ix2 p q) c
  have r0 : ∀ c : dot_S400x512_S512x1_S400x1_1_0_0_1_n_n.contr.Idx, (dot_S400x512_S512x1_S400x1_1_0_0_1_n_n.rhsIdx (ix2 p q) c 0).val = (c ⟨0, by decide⟩).val := fun c =>
    dot_S400x512_S512x1_S400x1_1_0_0_1_n_n.rhsIdx_val_of_single rfl (ix2 p q) c
  have r1 : ∀ c : dot_S400x512_S512x1_S400x1_1_0_0_1_n_n.contr.Idx, (dot_S400x512_S512x1_S400x1_1_0_0_1_n_n.rhsIdx (ix2 p q) c 1).val = q.val := fun c => by
    unfold DotDims.rhsIdx
    rw [dif_neg (show ¬(1 : Fin S512x1.rank) ∈ dot_S400x512_S512x1_S400x1_1_0_0_1_n_n.rhsBatch by decide),
      dif_pos (show (1 : Fin S512x1.rank) ∈ dot_S400x512_S512x1_S400x1_1_0_0_1_n_n.rhsNonContracting by decide)]
    rfl
  refine (Ideal.matmul_constant_zero_apply dot_S400x512_S512x1_S400x1_1_0_0_1_n_n none l r (ix2 p q)).trans ?_
  rw [← Equiv.sum_comp (contrEquiv1 dot_S400x512_S512x1_S400x1_1_0_0_1_n_n 512 rfl rfl).symm]
  refine Finset.sum_congr rfl fun k _ => ?_
  have hk := contrEquiv1_symm_val dot_S400x512_S512x1_S400x1_1_0_0_1_n_n 512 rfl rfl k
  have el : dot_S400x512_S512x1_S400x1_1_0_0_1_n_n.lhsIdx (ix2 p q) ((contrEquiv1 dot_S400x512_S512x1_S400x1_1_0_0_1_n_n 512 rfl rfl).symm k) = ix2 p k :=
    funext fun a => Fin.ext (by
      match a with
      | ⟨0, _⟩ => exact l0 _
      | ⟨1, _⟩ => exact (l1 _).trans hk)
  have er : dot_S400x512_S512x1_S400x1_1_0_0_1_n_n.rhsIdx (ix2 p q) ((contrEquiv1 dot_S400x512_S512x1_S400x1_1_0_0_1_n_n 512 rfl rfl).symm k) = ix2 k q :=
    funext fun a => Fin.ext (by
      match a with
      | ⟨0, _⟩ => exact (r0 _).trans hk
      | ⟨1, _⟩ => exact r1 _)
  rw [el, er]

/-- A column broadcast along its rows: a 400 by 1 array broadcast to 400 by 10000 reads, at (p, j), the column's entry of row p. -/
theorem broadcastTo_col_apply {α : Type} (v : S400x1.Idx → α) (p : Fin 400) (j : Fin 10000) :
    broadcastTo S400x10000 v broadcasts_S400x1_S400x10000 (ix2 p j) = v (ix2 p 0) := by
  refine broadcastTo_apply v broadcasts_S400x1_S400x10000 (ix2 p j) (ix2 p 0) fun ax => ?_
  match ax with
  | ⟨0, _⟩ =>
    show p.val = if (400 : Nat) = 1 then 0 else p.val
    rw [if_neg (by decide)]
  | ⟨1, _⟩ => rfl

/-- The propagation layer as a grid point computes it from its blocks: the adjacency rows scaled by the column and then
    by the row of inverse square roots of degrees, multiplied into the features, the bias row added, and the maximum
    with zero taken. Its entry (p, q) is max (sum_j ((A_pj * dc_p) * dr_j) V_jq + b_q) 0, the entry of `layer`. -/
theorem layer_apply (x0 : FVec Ideal S400x10000 .f32) (x1 : FVec Ideal S400x1 .f32) (x2 : FVec Ideal S1x10000 .f32)
    (x3 : FVec Ideal S10000x512 .bf16) (x4 : FVec Ideal S1x512 .f32) (p : Fin 400) (q : Fin 512) :
    maximumf
      (addf
        (matmul dot_S400x10000_S10000x512_S400x512_1_0_0_1_n_n none
          (truncf .bf16
            (mulf
              (mulf x0 (broadcastTo S400x10000 (shapeCast S400x1 x1 shapeCasts_S400x1_S400x1) broadcasts_S400x1_S400x10000))
              (broadcastTo S400x10000 (shapeCast S1x10000 x2 shapeCasts_S1x10000_S1x10000) broadcasts_S1x10000_S400x10000))
            bitsLt_bf16_f32)
          (shapeCast S10000x512 x3 shapeCasts_S10000x512_S10000x512)
          (constant (F := Ideal) S400x512 .f32 0x00000000#32))
        (broadcastTo S400x512 (shapeCast S1x512 x4 shapeCasts_S1x512_S1x512) broadcasts_S1x512_S400x512))
      (broadcast S400x512 (Scalar.ofBits (F := Ideal) .f32 0x00000000#32)) (ix2 p q)
    = layer x0 x1 x2 x3 x4 (ix2 p q) := by
  unfold layer
  rw [ofCoords_ix2]
  refine (maximumf_apply _ _ (ix2 p q)).trans ?_
  refine congrArg₂ max ?_ Ideal.ofBits_zero_f32
  refine (addf_apply _ _ (ix2 p q)).trans ?_
  refine congrArg₂ (· + ·) ?_ ?_
  · refine (matmul_10000_512_apply _ _ p q).trans ?_
    refine Finset.sum_congr rfl fun j _ => ?_
    show (x0 (ix2 p j)
          * broadcastTo S400x10000 (shapeCast S400x1 x1 shapeCasts_S400x1_S400x1) broadcasts_S400x1_S400x10000 (ix2 p j))
          * broadcastTo S400x10000 (shapeCast S1x10000 x2 shapeCasts_S1x10000_S1x10000) broadcasts_S1x10000_S400x10000 (ix2 p j)
          * shapeCast S10000x512 x3 shapeCasts_S10000x512_S10000x512 (ix2 j q) = _
    rw [broadcastTo_col_apply, broadcastTo_1b_ab_apply, shapeCast_self, shapeCast_self, shapeCast_self]
  · exact (broadcastTo_1b_ab_apply _ _ p q).trans (congrFun (shapeCast_self x4 _) _)

/-- First pass, first store: the column of inverse square roots of the degrees of the block's rows. -/
theorem pay_dinv (x0 : FVec Ideal S400x10000 .f32) : k0_pay1 (F := Ideal) x0 = dinvCol x0 := by
  refine arr2_ext fun p q => ?_
  obtain rfl : q = 0 := Subsingleton.elim _ _
  unfold dinvCol dinv deg
  rw [ofCoords_ix2]
  unfold k0_pay1
  dsimp only
  -- the column entry (p, 0) sits at the row-major position of the vector entry p
  refine (shapeCast_apply _ shapeCasts_S400_S400x1 (ix2 p 0) (ix1 p) ?_).trans ?_
  · rw [Shape.rowMajor_val_one, Shape.rowMajor_val_two]
    show p.val = p.val * 1 + 0
    omega
  · show Ideal.rsqrt (multiReduction .add [1] S400 x0 0x00000000#32 reduces_S400x10000_S400 (.inl rfl) rfl (ix1 p)
        + Ideal.ofBits .f32 0x3089705F#32) = _
    refine congrArg (fun s => Ideal.rsqrt (s + eps)) ?_
    -- the lane sum of row p is the sum of the row's entries
    refine (Ideal.multiReduction_add_single x0 0x00000000#32 reduces_S400x10000_S400 (.inl rfl) rfl (ix1 p)).trans ?_
    show ∑ k : Fin 10000, x0 (reduces_S400x10000_S400.lift (ix1 p) k) = ∑ k : Fin 10000, x0 (ix2 p k)
    refine Finset.sum_congr rfl fun k _ => congrArg x0 (funext fun a => Fin.ext ?_)
    match a with
    | ⟨0, _⟩ => rfl
    | ⟨1, _⟩ => rfl

/-- First pass, second store: the dense product of the block's feature rows with the first weight matrix. -/
theorem pay_dense (x1 : FVec Ideal S400x512 .f32) (x2 : FVec Ideal S512x512 .f32) :
    k0_pay2 (F := Ideal) x1 x2 = dense x1 x2 := by
  refine arr2_ext fun p q => ?_
  unfold dense
  rw [ofCoords_ix2]
  unfold k0_pay2
  exact matmul_512_512_apply (truncf .bf16 x1 bitsLt_bf16_f32) (truncf .bf16 x2 bitsLt_bf16_f32) p q

/-- Second pass: one propagation layer on the block's rows, then the dense product with the second weight matrix. -/
theorem pay_layer_dense (x0 : FVec Ideal S400x10000 .f32) (x1 : FVec Ideal S400x1 .f32) (x2 : FVec Ideal S1x10000 .f32)
    (x3 : FVec Ideal S10000x512 .bf16) (x4 : FVec Ideal S1x512 .f32) (x5 : FVec Ideal S512x512 .bf16) :
    k1_pay1 (F := Ideal) x0 x1 x2 x3 x4 x5 = dense (layer x0 x1 x2 x3 x4) x5 := by
  refine arr2_ext fun p q => ?_
  unfold dense
  rw [ofCoords_ix2]
  unfold k1_pay1
  refine (truncf_apply (ψ := .bf16) (φ := .f32) _ bitsLt_bf16_f32 (ix2 p q)).trans ?_
  refine (matmul_512_512_apply _ _ p q).trans ?_
  refine Finset.sum_congr rfl fun k _ => ?_
  exact congrArg₂ (· * ·) (layer_apply x0 x1 x2 x3 x4 p k) (congrFun (shapeCast_self x5 _) (ix2 k q))

/-- Third pass: one propagation layer on the block's rows, then the linear head. -/
theorem pay_layer_head (x0 : FVec Ideal S400x10000 .f32) (x1 : FVec Ideal S400x1 .f32) (x2 : FVec Ideal S1x10000 .f32)
    (x3 : FVec Ideal S10000x512 .bf16) (x4 : FVec Ideal S1x512 .f32) (x5 : FVec Ideal S512x1 .f32) (x6 : FVec Ideal S1x1 .f32) :
    k2_pay1 (F := Ideal) x0 x1 x2 x3 x4 x5 x6 = head (layer x0 x1 x2 x3 x4) x5 x6 := by
  refine arr2_ext fun p q => ?_
  obtain rfl : q = 0 := Subsingleton.elim _ _
  unfold head
  rw [ofCoords_ix2]
  unfold k2_pay1
  refine (addf_apply _ _ (ix2 p 0)).trans ?_
  refine congrArg₂ (· + ·) ?_ ?_
  · refine (matmul_512_1_apply _ _ p 0).trans ?_
    refine Finset.sum_congr rfl fun k _ => ?_
    exact congrArg (· * x5 (ix2 k 0)) (layer_apply x0 x1 x2 x3 x4 p k)
  · exact (broadcastTo_1b_ab_apply _ _ p 0).trans (congrFun (shapeCast_self x6 _) _)

end Cert.KernelIdeal.Bridge

end
-- ==== Proof.Blocks0.lean ====
/-
  The first pass, from row blocks to whole arrays.

  The grid has 25 points; point t works on rows 400 t .. 400 t + 399. Its adjacency block and its feature block
  are those rows of the adjacency and feature arrays, the weight matrix is read whole, and it writes back rows
  400 t .. 400 t + 399 of two arrays: the column of inverse square roots of the degrees, and the dense product of
  the features with the weights. Both are row-local functions, so each write-back is the block of ONE whole-array
  function, and since the 25 blocks tile the 10000 rows the two arrays end holding that function.
-/
import proofs.«102826_g53249004536087_cont_9to1_m_742_18_alg».proof.Proof.Gen.KernelIdeal.Frame
import proofs.«102826_g53249004536087_cont_9to1_m_742_18_alg».proof.Proof.Passes
import proofs.«102826_g53249004536087_cont_9to1_m_742_18_alg».proof.Proof.Payloads
import Idealize.ShloMosaic.Lib.Pipeline.Value

set_option maxRecDepth 16384

noncomputable section

namespace Cert.KernelIdeal.Bridge

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Row `p` of the block at grid point `t` is row `400 t + p` of the array. -/
def rowAt (t : Nat) (ht : t < 25) (p : Fin 400) : Fin 10000 := ⟨400 * t + p.val, by have := p.isLt; omega⟩

/-- The block indices of the first pass, decided over the grid: the row-blocked windows are at block (t, 0), the
    weight matrix at block (0, 0). -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt0 (t : Fin cfg0.N) : t.val < 25 := by have := t.isLt; have hN : cfg0.N = 25 := N_0; omega

/-- The adjacency block at point `t` is rows `400 t ..` of the adjacency array. -/
theorem blk0_adj (c : Dev nD) (t : Fin cfg0.N) (p : Fin 400) (j : Fin 10000) :
    (iblk0 V c 0 t : Arr2 400 10000) (ix2 p j) = (V c main_arg1 : Arr2 10000 10000) (ix2 (rowAt t.val (point_lt0 t) p) j) := by
  obtain ⟨e0, e1, -⟩ := index0 t
  unfold iblk0
  rw [View.read_apply]
  show V c main_arg1 _ = V c main_arg1 _
  refine congrArg (V c main_arg1) (funext fun a => Fin.ext ?_)
  match a with
  | ⟨0, _⟩ => show win0_0.index t (0 : Fin 2) * 400 + 1 * p.val = 400 * t.val + p.val; rw [e0]; omega
  | ⟨1, _⟩ => show win0_0.index t (1 : Fin 2) * 10000 + 1 * j.val = j.val; rw [e1]; omega

/-- The feature block at point `t` is rows `400 t ..` of the feature array. -/
theorem blk0_feats (c : Dev nD) (t : Fin cfg0.N) (p : Fin 400) (k : Fin 512) :
    (iblk0 V c 1 t : Arr2 400 512) (ix2 p k) = (V c main_arg0 : Arr2 10000 512) (ix2 (rowAt t.val (point_lt0 t) p) k) := by
  obtain ⟨-, -, e0, e1, -⟩ := index0 t
  unfold iblk0
  rw [View.read_apply]
  show V c main_arg0 _ = V c main_arg0 _
  refine congrArg (V c main_arg0) (funext fun a => Fin.ext ?_)
  match a with
  | ⟨0, _⟩ => show win0_1.index t (0 : Fin 2) * 400 + 1 * p.val = 400 * t.val + p.val; rw [e0]; omega
  | ⟨1, _⟩ => show win0_1.index t (1 : Fin 2) * 512 + 1 * k.val = k.val; rw [e1]; omega

/-- The weight block at every point is the whole first weight matrix. -/
theorem blk0_w1 (c : Dev nD) (t : Fin cfg0.N) : (iblk0 V c 2 t : Arr2 512 512) = (V c main_arg2 : Arr2 512 512) := by
  obtain ⟨-, -, -, -, e0, e1, -⟩ := index0 t
  refine arr2_ext fun k q => ?_
  unfold iblk0
  rw [View.read_apply]
  show V c main_arg2 _ = V c main_arg2 _
  refine congrArg (V c main_arg2) (funext fun a => Fin.ext ?_)
  match a with
  | ⟨0, _⟩ => show win0_2.index t (0 : Fin 2) * 512 + 1 * k.val = k.val; rw [e0]; omega
  | ⟨1, _⟩ => show win0_2.index t (1 : Fin 2) * 512 + 1 * q.val = q.val; rw [e1]; omega

/-! ## The column of inverse square roots of degrees -/

/-- What point `t` writes back to the column is its block of the whole column. -/
theorem flushed0_dinv (c : Dev nD) (t : Fin cfg0.N) :
    (dat0 V c).flushed 3 t = ((cfg0.win 3).blk t).view.read (Elt Ideal) (dinvCol (V c main_arg1 : Arr2 10000 10000)) := by
  obtain ⟨-, -, -, -, -, -, e6, e7, -⟩ := index0 t
  show (cfg0.win 3).cut (grid0.coords t) ((dat0 V c).after 3 t) = _
  rw [after0_3]
  unfold out0_3
  rw [View.canon_unit_zero zero_offsets]
  simp only [View.ld_unit_zero (S := S400x10000) zero_offsets]
  funext y
  rw [View.read_apply]
  obtain ⟨p, q, rfl⟩ : ∃ (p : Fin 400) (q : Fin 1), y = ix2 p q := ⟨y 0, y 1, eq_ix2 y⟩
  have hemb : ((cfg0.win 3).blk t).view.emb (ix2 p q) = ix2 (rowAt t.val (point_lt0 t) p) q := funext fun a => Fin.ext (by
    match a with
    | ⟨0, _⟩ => show win0_3.index t (0 : Fin 2) * 400 + 1 * p.val = 400 * t.val + p.val; rw [e6]; omega
    | ⟨1, _⟩ => show win0_3.index t (1 : Fin 2) * 1 + 1 * q.val = q.val; rw [e7]; omega)
  rw [hemb]
  refine (congrFun (pay_dinv (iblk0 V c 0 t)) (ix2 p q)).trans ?_
  exact dinvCol_rows (rowAt t.val (point_lt0 t)) (V c main_arg1) (iblk0 V c 0 t) (fun p j => blk0_adj V c t p j) p q

/-- An index of the column is in point `t`'s block iff each coordinate is in the block's range on its axis. -/
theorem mem_blk0_dinv (t : Fin cfg0.N) (i : S10000x1.Idx) :
    i ∈ ((cfg0.win 3).blk t).view.set ↔ ∀ a : Fin 2, win0_3.index t a * S400x1.size a ≤ (i a).val ∧ (i a).val < win0_3.index t a * S400x1.size a + S400x1.size a := by
  show i ∈ ((View.whole main_v3_0).slice (win0_3.rect t)).set ↔ _
  rw [View.set_slice_whole, Rect.mem_set_unit]
  exact Iff.rfl

/-- Row `r` of the column is written back by point `r / 400`. -/
theorem cover0_dinv (i : S10000x1.Idx) :
    ∃ t : Fin cfg0.N, (cfg0.win 3).flush t = true ∧ i ∈ ((cfg0.win 3).blk t).view.set := by
  have hi0 : (i 0).val < 10000 := (i 0).isLt
  have hi1 : (i 1).val < 1 := (i 1).isLt
  have hN : cfg0.N = 25 := N_0
  obtain ⟨t, ht⟩ : ∃ t : Fin cfg0.N, t.val = (i 0).val / 400 := ⟨⟨(i 0).val / 400, by omega⟩, rfl⟩
  obtain ⟨-, -, -, -, -, -, e6, e7, -⟩ := index0 t
  refine ⟨t, flush0_3 t, ?_⟩
  rw [mem_blk0_dinv]
  intro a
  match a with
  | ⟨0, _⟩ => show win0_3.index t (0 : Fin 2) * 400 ≤ (i 0).val ∧ (i 0).val < win0_3.index t (0 : Fin 2) * 400 + 400; rw [e6, ht]; omega
  | ⟨1, _⟩ => show win0_3.index t (1 : Fin 2) * 1 ≤ (i 1).val ∧ (i 1).val < win0_3.index t (1 : Fin 2) * 1 + 1; rw [e7]; omega

/-- After the first pass the column holds the inverse square roots of the degrees of the adjacency the pass found. -/
theorem final0_dinv (c : Dev nD) : (dat0 V c).arrAt 3 cfg0.N = dinvCol (V c main_arg1 : Arr2 10000 10000) :=
  (dat0 V c).arrAt_eq_of_cover 3 (dinvCol (V c main_arg1 : Arr2 10000 10000)) (fun t _ => flushed0_dinv V c t) cover0_dinv

/-! ## The dense product of the features with the first weights -/

/-- What point `t` writes back to the product is its block of the whole product. -/
theorem flushed0_dense (c : Dev nD) (t : Fin cfg0.N) :
    (dat0 V c).flushed 4 t = ((cfg0.win 4).blk t).view.read (Elt Ideal)
      (dense (V c main_arg0 : Arr2 10000 512) (V c main_arg2 : Arr2 512 512)) := by
  obtain ⟨-, -, -, -, -, -, -, -, e8, e9⟩ := index0 t
  show (cfg0.win 4).cut (grid0.coords t) ((dat0 V c).after 4 t) = _
  rw [after0_4]
  unfold out0_4
  rw [View.canon_unit_zero zero_offsets]
  simp only [View.ld_unit_zero (S := S400x512) zero_offsets, View.ld_unit_zero (S := S512x512) zero_offsets]
  funext y
  rw [View.read_apply]
  obtain ⟨p, q, rfl⟩ : ∃ (p : Fin 400) (q : Fin 512), y = ix2 p q := ⟨y 0, y 1, eq_ix2 y⟩
  have hemb : ((cfg0.win 4).blk t).view.emb (ix2 p q) = ix2 (rowAt t.val (point_lt0 t) p) q := funext fun a => Fin.ext (by
    match a with
    | ⟨0, _⟩ => show win0_4.index t (0 : Fin 2) * 400 + 1 * p.val = 400 * t.val + p.val; rw [e8]; omega
    | ⟨1, _⟩ => show win0_4.index t (1 : Fin 2) * 512 + 1 * q.val = q.val; rw [e9]; omega)
  rw [hemb]
  refine (congrFun (pay_dense (iblk0 V c 1 t) (iblk0 V c 2 t)) (ix2 p q)).trans ?_
  rw [blk0_w1 V c t]
  exact dense_rows (rowAt t.val (point_lt0 t)) (V c main_arg0) (V c main_arg2) (iblk0 V c 1 t) (fun p k => blk0_feats V c t p k) p q

theorem mem_blk0_dense (t : Fin cfg0.N) (i : S10000x512.Idx) :
    i ∈ ((cfg0.win 4).blk t).view.set ↔ ∀ a : Fin 2, win0_4.index t a * S400x512.size a ≤ (i a).val ∧ (i a).val < win0_4.index t a * S400x512.size a + S400x512.size a := by
  show i ∈ ((View.whole main_v3_1).slice (win0_4.rect t)).set ↔ _
  rw [View.set_slice_whole, Rect.mem_set_unit]
  exact Iff.rfl

theorem cover0_dense (i : S10000x512.Idx) :
    ∃ t : Fin cfg0.N, (cfg0.win 4).flush t = true ∧ i ∈ ((cfg0.win 4).blk t).view.set := by
  have hi0 : (i 0).val < 10000 := (i 0).isLt
  have hi1 : (i 1).val < 512 := (i 1).isLt
  have hN : cfg0.N = 25 := N_0
  obtain ⟨t, ht⟩ : ∃ t : Fin cfg0.N, t.val = (i 0).val / 400 := ⟨⟨(i 0).val / 400, by omega⟩, rfl⟩
  obtain ⟨-, -, -, -, -, -, -, -, e8, e9⟩ := index0 t
  refine ⟨t, flush0_4 t, ?_⟩
  rw [mem_blk0_dense]
  intro a
  match a with
  | ⟨0, _⟩ => show win0_4.index t (0 : Fin 2) * 400 ≤ (i 0).val ∧ (i 0).val < win0_4.index t (0 : Fin 2) * 400 + 400; rw [e8, ht]; omega
  | ⟨1, _⟩ => show win0_4.index t (1 : Fin 2) * 512 ≤ (i 1).val ∧ (i 1).val < win0_4.index t (1 : Fin 2) * 512 + 512; rw [e9]; omega

/-- After the first pass the product array holds the dense product of the features and the first weights as the pass
    found them. -/
theorem final0_dense (c : Dev nD) : (dat0 V c).arrAt 4 cfg0.N = dense (V c main_arg0 : Arr2 10000 512) (V c main_arg2 : Arr2 512 512) :=
  (dat0 V c).arrAt_eq_of_cover 4 (dense (V c main_arg0 : Arr2 10000 512) (V c main_arg2 : Arr2 512 512))
    (fun t _ => flushed0_dense V c t) cover0_dense

end Cert.KernelIdeal.Bridge

end
-- ==== Proof.Blocks1.lean ====
/-
  The second pass, from row blocks to the whole array.

  Point t of its 25-point grid reads rows 400 t .. 400 t + 399 of the adjacency and of the column of inverse square
  roots of degrees, reads the row of inverse square roots, the transformed features, the bias row and the second
  weight matrix whole, and writes back rows 400 t .. of its output. A propagation layer followed by a dense product
  is row-local, so every write-back is the block of one whole-array function, and the 25 blocks tile the rows.
-/
import proofs.«102826_g53249004536087_cont_9to1_m_742_18_alg».proof.Proof.Gen.KernelIdeal.Frame
import proofs.«102826_g53249004536087_cont_9to1_m_742_18_alg».proof.Proof.Passes
import proofs.«102826_g53249004536087_cont_9to1_m_742_18_alg».proof.Proof.Payloads
import proofs.«102826_g53249004536087_cont_9to1_m_742_18_alg».proof.Proof.Blocks0
import Idealize.ShloMosaic.Lib.Pipeline.Value

set_option maxRecDepth 16384

noncomputable section

namespace Cert.KernelIdeal.Bridge

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of this pass, decided over the grid: a row-blocked window is at block (t, 0), a window read
    whole at block (0, 0). -/
theorem index1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

theorem point_lt1 (t : Fin cfg1.N) : t.val < 25 := by have := t.isLt; have hN : cfg1.N = 25 := N_1; omega

/-- The adjacency block at point `t` is rows `400 t ..` of the adjacency array. -/
theorem blk1_adj (c : Dev nD) (t : Fin cfg1.N) (p : Fin 400) (j : Fin 10000) :
    (iblk1 V c 0 t : Arr2 400 10000) (ix2 p j) = (V c main_arg1 : Arr2 10000 10000) (ix2 (rowAt t.val (point_lt1 t) p) j) := by
  obtain ⟨e0, e1, -⟩ := index1 t
  unfold iblk1
  rw [View.read_apply]
  show V c main_arg1 _ = V c main_arg1 _
  refine congrArg (V c main_arg1) (funext fun a => Fin.ext ?_)
  match a with
  | ⟨0, _⟩ => show win1_0.index t (0 : Fin 2) * 400 + 1 * p.val = 400 * t.val + p.val; rw [e0]; omega
  | ⟨1, _⟩ => show win1_0.index t (1 : Fin 2) * 10000 + 1 * j.val = j.val; rw [e1]; omega

/-- The block of the column of inverse square roots at point `t` is its rows `400 t ..`. -/
theorem blk1_dcol (c : Dev nD) (t : Fin cfg1.N) (p : Fin 400) (j : Fin 1) :
    (iblk1 V c 1 t : Arr2 400 1) (ix2 p j) = (V c main_v3_0 : Arr2 10000 1) (ix2 (rowAt t.val (point_lt1 t) p) j) := by
  obtain ⟨-, -, e0, e1, -⟩ := index1 t
  unfold iblk1
  rw [View.read_apply]
  show V c main_v3_0 _ = V c main_v3_0 _
  refine congrArg (V c main_v3_0) (funext fun a => Fin.ext ?_)
  match a with
  | ⟨0, _⟩ => show win1_1.index t (0 : Fin 2) * 400 + 1 * p.val = 400 * t.val + p.val; rw [e0]; omega
  | ⟨1, _⟩ => show win1_1.index t (1 : Fin 2) * 1 + 1 * j.val = j.val; rw [e1]; omega

/-- The row of inverse square roots is read whole at every point. -/
theorem blk1_drow (c : Dev nD) (t : Fin cfg1.N) : (iblk1 V c 2 t : Arr2 1 10000) = (V c main_v4 : Arr2 1 10000) := by
  obtain ⟨-, -, -, -, e0, e1, -⟩ := index1 t
  refine arr2_ext fun k q => ?_
  unfold iblk1
  rw [View.read_apply]
  show V c main_v4 _ = V c main_v4 _
  refine congrArg (V c main_v4) (funext fun a => Fin.ext ?_)
  match a with
  | ⟨0, _⟩ => show win1_2.index t (0 : Fin 2) * 1 + 1 * k.val = k.val; rw [e0]; omega
  | ⟨1, _⟩ => show win1_2.index t (1 : Fin 2) * 10000 + 1 * q.val = q.val; rw [e1]; omega

/-- The transformed features are read whole at every point. -/
theorem blk1_feat (c : Dev nD) (t : Fin cfg1.N) : (iblk1 V c 3 t : Arr2 10000 512) = (V c main_v3_1 : Arr2 10000 512) := by
  obtain ⟨-, -, -, -, -, -, e0, e1, -⟩ := index1 t
  refine arr2_ext fun k q => ?_
  unfold iblk1
  rw [View.read_apply]
  show V c main_v3_1 _ = V c main_v3_1 _
  refine congrArg (V c main_v3_1) (funext fun a => Fin.ext ?_)
  match a with
  | ⟨0, _⟩ => show win1_3.index t (0 : Fin 2) * 10000 + 1 * k.val = k.val; rw [e0]; omega
  | ⟨1, _⟩ => show win1_3.index t (1 : Fin 2) * 512 + 1 * q.val = q.val; rw [e1]; omega

/-- The bias row is read whole at every point. -/
theorem blk1_bias (c : Dev nD) (t : Fin cfg1.N) : (iblk1 V c 4 t : Arr2 1 512) = (V c main_v0 : Arr2 1 512) := by
  obtain ⟨-, -, -, -, -, -, -, -, e0, e1, -⟩ := index1 t
  refine arr2_ext fun k q => ?_
  unfold iblk1
  rw [View.read_apply]
  show V c main_v0 _ = V c main_v0 _
  refine congrArg (V c main_v0) (funext fun a => Fin.ext ?_)
  match a with
  | ⟨0, _⟩ => show win1_4.index t (0 : Fin 2) * 1 + 1 * k.val = k.val; rw [e0]; omega
  | ⟨1, _⟩ => show win1_4.index t (1 : Fin 2) * 512 + 1 * q.val = q.val; rw [e1]; omega

/-- The second weight matrix is read whole at every point. -/
theorem blk1_w2 (c : Dev nD) (t : Fin cfg1.N) : (iblk1 V c 5 t : Arr2 512 512) = (V c main_v5 : Arr2 512 512) := by
  obtain ⟨-, -, -, -, -, -, -, -, -, -, e0, e1, -⟩ := index1 t
  refine arr2_ext fun k q => ?_
  unfold iblk1
  rw [View.read_apply]
  show V c main_v5 _ = V c main_v5 _
  refine congrArg (V c main_v5) (funext fun a => Fin.ext ?_)
  match a with
  | ⟨0, _⟩ => show win1_5.index t (0 : Fin 2) * 512 + 1 * k.val = k.val; rw [e0]; omega
  | ⟨1, _⟩ => show win1_5.index t (1 : Fin 2) * 512 + 1 * q.val = q.val; rw [e1]; omega

/-! ## The first layer followed by the dense product with the second weights -/

/-- What point `t` writes back is its block of ONE whole-array function: the layer and the dense product are row-local. -/
theorem flushed1 (c : Dev nD) (t : Fin cfg1.N) :
    (dat1 V c).flushed 6 t = ((cfg1.win 6).blk t).view.read (Elt Ideal)
      (dense (layer (V c main_arg1 : Arr2 10000 10000) (V c main_v3_0 : Arr2 10000 1) (V c main_v4 : Arr2 1 10000) (V c main_v3_1 : Arr2 10000 512) (V c main_v0 : Arr2 1 512)) (V c main_v5 : Arr2 512 512)) := by
  obtain ⟨-, -, -, -, -, -, -, -, -, -, -, -, e0, e1⟩ := index1 t
  show (cfg1.win 6).cut (grid1.coords t) ((dat1 V c).after 6 t) = _
  rw [after1_6]
  unfold out1_6
  rw [View.canon_unit_zero zero_offsets]
  simp only [View.ld_unit_zero (S := S400x10000) zero_offsets, View.ld_unit_zero (S := S400x1) zero_offsets, View.ld_unit_zero (S := S1x10000) zero_offsets, View.ld_unit_zero (S := S10000x512) zero_offsets, View.ld_unit_zero (S := S1x512) zero_offsets, View.ld_unit_zero (S := S512x512) zero_offsets]
  funext y
  rw [View.read_apply]
  obtain ⟨p, q, rfl⟩ : ∃ (p : Fin 400) (q : Fin 512), y = ix2 p q := ⟨y 0, y 1, eq_ix2 y⟩
  have hemb : ((cfg1.win 6).blk t).view.emb (ix2 p q) = ix2 (rowAt t.val (point_lt1 t) p) q := funext fun a => Fin.ext (by
    match a with
    | ⟨0, _⟩ => show win1_6.index t (0 : Fin 2) * 400 + 1 * p.val = 400 * t.val + p.val; rw [e0]; omega
    | ⟨1, _⟩ => show win1_6.index t (1 : Fin 2) * 512 + 1 * q.val = q.val; rw [e1]; omega)
  rw [hemb]
  refine (congrFun (pay_layer_dense (iblk1 V c 0 t) (iblk1 V c 1 t) (iblk1 V c 2 t) (iblk1 V c 3 t) (iblk1 V c 4 t) (iblk1 V c 5 t)) (ix2 p q)).trans ?_
  rw [blk1_drow V c t, blk1_feat V c t, blk1_bias V c t, blk1_w2 V c t]
  exact dense_rows (rowAt t.val (point_lt1 t)) (layer (V c main_arg1 : Arr2 10000 10000) (V c main_v3_0 : Arr2 10000 1) (V c main_v4 : Arr2 1 10000) (V c main_v3_1 : Arr2 10000 512) (V c main_v0 : Arr2 1 512)) (V c main_v5) (layer (iblk1 V c 0 t) (iblk1 V c 1 t) (V c main_v4) (V c main_v3_1) (V c main_v0))
    (fun p k => layer_rows (rowAt t.val (point_lt1 t)) (V c main_arg1) (V c main_v3_0) (V c main_v4) (V c main_v3_1) (V c main_v0) (iblk1 V c 0 t) (iblk1 V c 1 t)
      (fun p j => blk1_adj V c t p j) (fun p => blk1_dcol V c t p 0) p k) p q

/-- An index of the output array is in point `t`'s block iff each coordinate is in the block's range on its axis. -/
theorem mem_blk1 (t : Fin cfg1.N) (i : S10000x512.Idx) :
    i ∈ ((cfg1.win 6).blk t).view.set ↔ ∀ a : Fin 2, win1_6.index t a * S400x512.size a ≤ (i a).val ∧ (i a).val < win1_6.index t a * S400x512.size a + S400x512.size a := by
  show i ∈ ((View.whole main_v6).slice (win1_6.rect t)).set ↔ _
  rw [View.set_slice_whole, Rect.mem_set_unit]
  exact Iff.rfl

/-- Row `r` of the output array is written back by point `r / 400`. -/
theorem cover1 (i : S10000x512.Idx) :
    ∃ t : Fin cfg1.N, (cfg1.win 6).flush t = true ∧ i ∈ ((cfg1.win 6).blk t).view.set := by
  have hi0 : (i 0).val < 10000 := (i 0).isLt
  have hi1 : (i 1).val < 512 := (i 1).isLt
  have hN : cfg1.N = 25 := N_1
  obtain ⟨t, ht⟩ : ∃ t : Fin cfg1.N, t.val = (i 0).val / 400 := ⟨⟨(i 0).val / 400, by omega⟩, rfl⟩
  obtain ⟨-, -, -, -, -, -, -, -, -, -, -, -, e0, e1⟩ := index1 t
  refine ⟨t, flush1_6 t, ?_⟩
  rw [mem_blk1]
  intro a
  match a with
  | ⟨0, _⟩ => show win1_6.index t (0 : Fin 2) * 400 ≤ (i 0).val ∧ (i 0).val < win1_6.index t (0 : Fin 2) * 400 + 400; rw [e0, ht]; omega
  | ⟨1, _⟩ => show win1_6.index t (1 : Fin 2) * 512 ≤ (i 1).val ∧ (i 1).val < win1_6.index t (1 : Fin 2) * 512 + 512; rw [e1]; omega

/-- After the second pass its output array holds the first layer's output multiplied by the second weights, all read from the arrays the pass found. -/
theorem final1 (c : Dev nD) : (dat1 V c).arrAt 6 cfg1.N = dense (layer (V c main_arg1 : Arr2 10000 10000) (V c main_v3_0 : Arr2 10000 1) (V c main_v4 : Arr2 1 10000) (V c main_v3_1 : Arr2 10000 512) (V c main_v0 : Arr2 1 512)) (V c main_v5 : Arr2 512 512) :=
  (dat1 V c).arrAt_eq_of_cover 6 (dense (layer (V c main_arg1 : Arr2 10000 10000) (V c main_v3_0 : Arr2 10000 1) (V c main_v4 : Arr2 1 10000) (V c main_v3_1 : Arr2 10000 512) (V c main_v0 : Arr2 1 512)) (V c main_v5 : Arr2 512 512)) (fun t _ => flushed1 V c t) cover1

end Cert.KernelIdeal.Bridge

end
-- ==== Proof.Blocks2.lean ====
/-
  The third pass, from row blocks to the whole array.

  Point t of its 25-point grid reads rows 400 t .. 400 t + 399 of the adjacency and of the column of inverse square
  roots of degrees, reads the row of inverse square roots, the second layer's input features, the bias row and the
  head's weights and bias whole, and writes back rows 400 t .. of the result. A propagation layer followed by the
  linear head is row-local, so every write-back is the block of one whole-array function, and the 25 blocks tile the
  rows.
-/
import proofs.«102826_g53249004536087_cont_9to1_m_742_18_alg».proof.Proof.Gen.KernelIdeal.Frame
import proofs.«102826_g53249004536087_cont_9to1_m_742_18_alg».proof.Proof.Passes
import proofs.«102826_g53249004536087_cont_9to1_m_742_18_alg».proof.Proof.Payloads
import proofs.«102826_g53249004536087_cont_9to1_m_742_18_alg».proof.Proof.Blocks0
import Idealize.ShloMosaic.Lib.Pipeline.Value

set_option maxRecDepth 16384

noncomputable section

namespace Cert.KernelIdeal.Bridge

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of this pass, decided over the grid: a row-blocked window is at block (t, 0), a window read
    whole at block (0, 0). -/
theorem index2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

theorem point_lt2 (t : Fin cfg2.N) : t.val < 25 := by have := t.isLt; have hN : cfg2.N = 25 := N_2; omega

/-- The adjacency block at point `t` is rows `400 t ..` of the adjacency array. -/
theorem blk2_adj (c : Dev nD) (t : Fin cfg2.N) (p : Fin 400) (j : Fin 10000) :
    (iblk2 V c 0 t : Arr2 400 10000) (ix2 p j) = (V c main_arg1 : Arr2 10000 10000) (ix2 (rowAt t.val (point_lt2 t) p) j) := by
  obtain ⟨e0, e1, -⟩ := index2 t
  unfold iblk2
  rw [View.read_apply]
  show V c main_arg1 _ = V c main_arg1 _
  refine congrArg (V c main_arg1) (funext fun a => Fin.ext ?_)
  match a with
  | ⟨0, _⟩ => show win2_0.index t (0 : Fin 2) * 400 + 1 * p.val = 400 * t.val + p.val; rw [e0]; omega
  | ⟨1, _⟩ => show win2_0.index t (1 : Fin 2) * 10000 + 1 * j.val = j.val; rw [e1]; omega

/-- The block of the column of inverse square roots at point `t` is its rows `400 t ..`. -/
theorem blk2_dcol (c : Dev nD) (t : Fin cfg2.N) (p : Fin 400) (j : Fin 1) :
    (iblk2 V c 1 t : Arr2 400 1) (ix2 p j) = (V c main_v3_0 : Arr2 10000 1) (ix2 (rowAt t.val (point_lt2 t) p) j) := by
  obtain ⟨-, -, e0, e1, -⟩ := index2 t
  unfold iblk2
  rw [View.read_apply]
  show V c main_v3_0 _ = V c main_v3_0 _
  refine congrArg (V c main_v3_0) (funext fun a => Fin.ext ?_)
  match a with
  | ⟨0, _⟩ => show win2_1.index t (0 : Fin 2) * 400 + 1 * p.val = 400 * t.val + p.val; rw [e0]; omega
  | ⟨1, _⟩ => show win2_1.index t (1 : Fin 2) * 1 + 1 * j.val = j.val; rw [e1]; omega

/-- The row of inverse square roots is read whole at every point. -/
theorem blk2_drow (c : Dev nD) (t : Fin cfg2.N) : (iblk2 V c 2 t : Arr2 1 10000) = (V c main_v4 : Arr2 1 10000) := by
  obtain ⟨-, -, -, -, e0, e1, -⟩ := index2 t
  refine arr2_ext fun k q => ?_
  unfold iblk2
  rw [View.read_apply]
  show V c main_v4 _ = V c main_v4 _
  refine congrArg (V c main_v4) (funext fun a => Fin.ext ?_)
  match a with
  | ⟨0, _⟩ => show win2_2.index t (0 : Fin 2) * 1 + 1 * k.val = k.val; rw [e0]; omega
  | ⟨1, _⟩ => show win2_2.index t (1 : Fin 2) * 10000 + 1 * q.val = q.val; rw [e1]; omega

/-- The second layer's input features are read whole at every point. -/
theorem blk2_feat (c : Dev nD) (t : Fin cfg2.N) : (iblk2 V c 3 t : Arr2 10000 512) = (V c main_v6 : Arr2 10000 512) := by
  obtain ⟨-, -, -, -, -, -, e0, e1, -⟩ := index2 t
  refine arr2_ext fun k q => ?_
  unfold iblk2
  rw [View.read_apply]
  show V c main_v6 _ = V c main_v6 _
  refine congrArg (V c main_v6) (funext fun a => Fin.ext ?_)
  match a with
  | ⟨0, _⟩ => show win2_3.index t (0 : Fin 2) * 10000 + 1 * k.val = k.val; rw [e0]; omega
  | ⟨1, _⟩ => show win2_3.index t (1 : Fin 2) * 512 + 1 * q.val = q.val; rw [e1]; omega

/-- The bias row is read whole at every point. -/
theorem blk2_bias (c : Dev nD) (t : Fin cfg2.N) : (iblk2 V c 4 t : Arr2 1 512) = (V c main_v1 : Arr2 1 512) := by
  obtain ⟨-, -, -, -, -, -, -, -, e0, e1, -⟩ := index2 t
  refine arr2_ext fun k q => ?_
  unfold iblk2
  rw [View.read_apply]
  show V c main_v1 _ = V c main_v1 _
  refine congrArg (V c main_v1) (funext fun a => Fin.ext ?_)
  match a with
  | ⟨0, _⟩ => show win2_4.index t (0 : Fin 2) * 1 + 1 * k.val = k.val; rw [e0]; omega
  | ⟨1, _⟩ => show win2_4.index t (1 : Fin 2) * 512 + 1 * q.val = q.val; rw [e1]; omega

/-- The head's weight column is read whole at every point. -/
theorem blk2_wp (c : Dev nD) (t : Fin cfg2.N) : (iblk2 V c 5 t : Arr2 512 1) = (V c main_arg6 : Arr2 512 1) := by
  obtain ⟨-, -, -, -, -, -, -, -, -, -, e0, e1, -⟩ := index2 t
  refine arr2_ext fun k q => ?_
  unfold iblk2
  rw [View.read_apply]
  show V c main_arg6 _ = V c main_arg6 _
  refine congrArg (V c main_arg6) (funext fun a => Fin.ext ?_)
  match a with
  | ⟨0, _⟩ => show win2_5.index t (0 : Fin 2) * 512 + 1 * k.val = k.val; rw [e0]; omega
  | ⟨1, _⟩ => show win2_5.index t (1 : Fin 2) * 1 + 1 * q.val = q.val; rw [e1]; omega

/-- The head's bias is read whole at every point. -/
theorem blk2_bp (c : Dev nD) (t : Fin cfg2.N) : (iblk2 V c 6 t : Arr2 1 1) = (V c main_v2 : Arr2 1 1) := by
  obtain ⟨-, -, -, -, -, -, -, -, -, -, -, -, e0, e1, -⟩ := index2 t
  refine arr2_ext fun k q => ?_
  unfold iblk2
  rw [View.read_apply]
  show V c main_v2 _ = V c main_v2 _
  refine congrArg (V c main_v2) (funext fun a => Fin.ext ?_)
  match a with
  | ⟨0, _⟩ => show win2_6.index t (0 : Fin 2) * 1 + 1 * k.val = k.val; rw [e0]; omega
  | ⟨1, _⟩ => show win2_6.index t (1 : Fin 2) * 1 + 1 * q.val = q.val; rw [e1]; omega

/-! ## The second layer followed by the linear head -/

/-- What point `t` writes back is its block of ONE whole-array function: the layer and the head are row-local. -/
theorem flushed2 (c : Dev nD) (t : Fin cfg2.N) :
    (dat2 V c).flushed 7 t = ((cfg2.win 7).blk t).view.read (Elt Ideal)
      (head (layer (V c main_arg1 : Arr2 10000 10000) (V c main_v3_0 : Arr2 10000 1) (V c main_v4 : Arr2 1 10000) (V c main_v6 : Arr2 10000 512) (V c main_v1 : Arr2 1 512)) (V c main_arg6 : Arr2 512 1) (V c main_v2 : Arr2 1 1)) := by
  obtain ⟨-, -, -, -, -, -, -, -, -, -, -, -, -, -, e0, e1⟩ := index2 t
  show (cfg2.win 7).cut (grid2.coords t) ((dat2 V c).after 7 t) = _
  rw [after2_7]
  unfold out2_7
  rw [View.canon_unit_zero zero_offsets]
  simp only [View.ld_unit_zero (S := S400x10000) zero_offsets, View.ld_unit_zero (S := S400x1) zero_offsets, View.ld_unit_zero (S := S1x10000) zero_offsets, View.ld_unit_zero (S := S10000x512) zero_offsets, View.ld_unit_zero (S := S1x512) zero_offsets, View.ld_unit_zero (S := S512x1) zero_offsets, View.ld_unit_zero (S := S1x1) zero_offsets]
  funext y
  rw [View.read_apply]
  obtain ⟨p, q, rfl⟩ : ∃ (p : Fin 400) (q : Fin 1), y = ix2 p q := ⟨y 0, y 1, eq_ix2 y⟩
  have hemb : ((cfg2.win 7).blk t).view.emb (ix2 p q) = ix2 (rowAt t.val (point_lt2 t) p) q := funext fun a => Fin.ext (by
    match a with
    | ⟨0, _⟩ => show win2_7.index t (0 : Fin 2) * 400 + 1 * p.val = 400 * t.val + p.val; rw [e0]; omega
    | ⟨1, _⟩ => show win2_7.index t (1 : Fin 2) * 1 + 1 * q.val = q.val; rw [e1]; omega)
  rw [hemb]
  refine (congrFun (pay_layer_head (iblk2 V c 0 t) (iblk2 V c 1 t) (iblk2 V c 2 t) (iblk2 V c 3 t) (iblk2 V c 4 t) (iblk2 V c 5 t) (iblk2 V c 6 t)) (ix2 p q)).trans ?_
  rw [blk2_drow V c t, blk2_feat V c t, blk2_bias V c t, blk2_wp V c t, blk2_bp V c t]
  exact head_rows (rowAt t.val (point_lt2 t)) (layer (V c main_arg1 : Arr2 10000 10000) (V c main_v3_0 : Arr2 10000 1) (V c main_v4 : Arr2 1 10000) (V c main_v6 : Arr2 10000 512) (V c main_v1 : Arr2 1 512)) (V c main_arg6) (V c main_v2) (layer (iblk2 V c 0 t) (iblk2 V c 1 t) (V c main_v4) (V c main_v6) (V c main_v1))
    (fun p k => layer_rows (rowAt t.val (point_lt2 t)) (V c main_arg1) (V c main_v3_0) (V c main_v4) (V c main_v6) (V c main_v1) (iblk2 V c 0 t) (iblk2 V c 1 t)
      (fun p j => blk2_adj V c t p j) (fun p => blk2_dcol V c t p 0) p k) p q

/-- An index of the output array is in point `t`'s block iff each coordinate is in the block's range on its axis. -/
theorem mem_blk2 (t : Fin cfg2.N) (i : S10000x1.Idx) :
    i ∈ ((cfg2.win 7).blk t).view.set ↔ ∀ a : Fin 2, win2_7.index t a * S400x1.size a ≤ (i a).val ∧ (i a).val < win2_7.index t a * S400x1.size a + S400x1.size a := by
  show i ∈ ((View.whole main_v7).slice (win2_7.rect t)).set ↔ _
  rw [View.set_slice_whole, Rect.mem_set_unit]
  exact Iff.rfl

/-- Row `r` of the output array is written back by point `r / 400`. -/
theorem cover2 (i : S10000x1.Idx) :
    ∃ t : Fin cfg2.N, (cfg2.win 7).flush t = true ∧ i ∈ ((cfg2.win 7).blk t).view.set := by
  have hi0 : (i 0).val < 10000 := (i 0).isLt
  have hi1 : (i 1).val < 1 := (i 1).isLt
  have hN : cfg2.N = 25 := N_2
  obtain ⟨t, ht⟩ : ∃ t : Fin cfg2.N, t.val = (i 0).val / 400 := ⟨⟨(i 0).val / 400, by omega⟩, rfl⟩
  obtain ⟨-, -, -, -, -, -, -, -, -, -, -, -, -, -, e0, e1⟩ := index2 t
  refine ⟨t, flush2_7 t, ?_⟩
  rw [mem_blk2]
  intro a
  match a with
  | ⟨0, _⟩ => show win2_7.index t (0 : Fin 2) * 400 ≤ (i 0).val ∧ (i 0).val < win2_7.index t (0 : Fin 2) * 400 + 400; rw [e0, ht]; omega
  | ⟨1, _⟩ => show win2_7.index t (1 : Fin 2) * 1 ≤ (i 1).val ∧ (i 1).val < win2_7.index t (1 : Fin 2) * 1 + 1; rw [e1]; omega

/-- After the third pass the result array holds the head of the second layer's output, all read from the arrays the pass found. -/
theorem final2 (c : Dev nD) : (dat2 V c).arrAt 7 cfg2.N = head (layer (V c main_arg1 : Arr2 10000 10000) (V c main_v3_0 : Arr2 10000 1) (V c main_v4 : Arr2 1 10000) (V c main_v6 : Arr2 10000 512) (V c main_v1 : Arr2 1 512)) (V c main_arg6 : Arr2 512 1) (V c main_v2 : Arr2 1 1) :=
  (dat2 V c).arrAt_eq_of_cover 7 (head (layer (V c main_arg1 : Arr2 10000 10000) (V c main_v3_0 : Arr2 10000 1) (V c main_v4 : Arr2 1 10000) (V c main_v6 : Arr2 10000 512) (V c main_v1 : Arr2 1 512)) (V c main_arg6 : Arr2 512 1) (V c main_v2 : Arr2 1 1)) (fun t _ => flushed2 V c t) cover2

end Cert.KernelIdeal.Bridge

end
-- ==== Proof.Boundary.lean ====
/-
  The contents of the buffers at the five segment boundaries, as functions of the launch arguments.

  The program is: reshape the two bias vectors to rows and the head's bias to a one-by-one array; first pass
  (inverse square roots of degrees as a column, and features times first weights); reshape that column to a
  row, and change the second weight matrix's float format (the identity over the extended reals); second pass
  (first layer, times second weights); third pass (second layer, then the head). A buffer that a segment does
  not write keeps its contents; a buffer a host operation writes holds that operation of its operand; an array a
  pass writes back holds the pass's whole-array function of the arrays the pass found. Walking the result buffer
  back through the five segments gives the result as the three passes composed, applied to the arguments.
-/
import proofs.«102826_g53249004536087_cont_9to1_m_742_18_alg».proof.Proof.Gen.KernelIdeal.Frame
import proofs.«102826_g53249004536087_cont_9to1_m_742_18_alg».proof.Proof.Passes
import proofs.«102826_g53249004536087_cont_9to1_m_742_18_alg».proof.Proof.Blocks0
import proofs.«102826_g53249004536087_cont_9to1_m_742_18_alg».proof.Proof.Blocks1
import proofs.«102826_g53249004536087_cont_9to1_m_742_18_alg».proof.Proof.Blocks2
import Idealize.ShloMosaic.Lib.Pipeline.Value
import Idealize.ShloMosaic.Lib.StableHlo.Run

set_option maxRecDepth 16384

noncomputable section

namespace Cert.KernelIdeal.Bridge

open Cert.KernelIdeal Cert.KernelIdeal.Gen Cert.Bridge
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- No operation of a host stretch writes the buffer in question: the stretch's written buffers are listed and
    each is a different reference. -/
local macro "unwritten" : tactic => `(tactic| (
  refine List.forall_iff_forall_mem.mp ?_
  simp only [hostOps0, hostOps1, List.Forall, StableHlo.nullary_writes, StableHlo.unary_writes, StableHlo.binary_writes,
    StableHlo.reshape_writes, Finset.mem_singleton]
  repeat' apply And.intro
  all_goals exact StableHlo.devRef_ne_of_ne (by decide)))

/-! ## After the first host stretch -/

/-- A buffer the first host stretch does not write holds its launch contents. -/
theorem W1_keep (c : Dev nD) (b : Ref sig .tc)
    (h : ∀ op ∈ (hostOps0 : List (HloOp τ sig (Elt Ideal))), Proc.devRef .tc b ∉ op.writes) :
    W1 m ρ c (Proc.devRef .tc b) = m ((c : Thread nD τ).loc b) :=
  (StableHlo.after_of_forall_not_mem (b := Proc.devRef .tc b) _ _ h).trans rfl

theorem W1_feats (c : Dev nD) : W1 m ρ c (Proc.devRef .tc main_arg0) = m ((c : Thread nD τ).loc main_arg0) := W1_keep m ρ c main_arg0 (by unwritten)
theorem W1_adj (c : Dev nD) : W1 m ρ c (Proc.devRef .tc main_arg1) = m ((c : Thread nD τ).loc main_arg1) := W1_keep m ρ c main_arg1 (by unwritten)
theorem W1_w1 (c : Dev nD) : W1 m ρ c (Proc.devRef .tc main_arg2) = m ((c : Thread nD τ).loc main_arg2) := W1_keep m ρ c main_arg2 (by unwritten)
theorem W1_w2 (c : Dev nD) : W1 m ρ c (Proc.devRef .tc main_arg4) = m ((c : Thread nD τ).loc main_arg4) := W1_keep m ρ c main_arg4 (by unwritten)
theorem W1_wp (c : Dev nD) : W1 m ρ c (Proc.devRef .tc main_arg6) = m ((c : Thread nD τ).loc main_arg6) := W1_keep m ρ c main_arg6 (by unwritten)

/-- A vector reshaped to one row reads, at column q, the vector at q. -/
theorem reshape_row {a : Nat} (x : Arr1 a) (h : (⟨1, ![a]⟩ : Shape).ShapeCasts ⟨2, ![1, a]⟩) :
    (shapeCast ⟨2, ![1, a]⟩ x h : Arr2 1 a) = rowOf x := by
  refine arr2_ext fun p q => ?_
  rw [rowOf, ofCoords_ix2]
  refine shapeCast_apply x h (ix2 p q) (ix1 q) ?_
  rw [Shape.rowMajor_val_one, Shape.rowMajor_val_two]
  have := p.isLt
  show q.val = p.val * a + q.val
  have hp : p.val = 0 := by omega
  rw [hp]; omega

/-- The first bias, reshaped to a row. -/
theorem W1_b1 (c : Dev nD) : (W1 m ρ c (Proc.devRef .tc main_v0) : Arr2 1 512) = rowOf (m ((c : Thread nD τ).loc main_arg3) : Arr1 512) := by
  have e : W1 m ρ c (Proc.devRef .tc main_v0) = fun i => shapeCast S1x512 (m ((c : Thread nD τ).loc main_arg3)) shapeCasts_S512_S1x512 i := by
    show StableHlo.after hostOps0 (W0 m ρ c) (Proc.devRef .tc main_v0) = _
    after_results
    rfl
  rw [e]
  exact reshape_row (m ((c : Thread nD τ).loc main_arg3) : Arr1 512) shapeCasts_S512_S1x512

/-- The second bias, reshaped to a row. -/
theorem W1_b2 (c : Dev nD) : (W1 m ρ c (Proc.devRef .tc main_v1) : Arr2 1 512) = rowOf (m ((c : Thread nD τ).loc main_arg5) : Arr1 512) := by
  have e : W1 m ρ c (Proc.devRef .tc main_v1) = fun i => shapeCast S1x512 (m ((c : Thread nD τ).loc main_arg5)) shapeCasts_S512_S1x512 i := by
    show StableHlo.after hostOps0 (W0 m ρ c) (Proc.devRef .tc main_v1) = _
    after_results
    rfl
  rw [e]
  exact reshape_row (m ((c : Thread nD τ).loc main_arg5) : Arr1 512) shapeCasts_S512_S1x512

/-- The head's bias, reshaped to a one-by-one array. -/
theorem W1_bp (c : Dev nD) : (W1 m ρ c (Proc.devRef .tc main_v2) : Arr2 1 1) = cellOf (m ((c : Thread nD τ).loc main_arg7) : Arr1 1) := by
  have e : W1 m ρ c (Proc.devRef .tc main_v2) = fun i => shapeCast S1x1 (m ((c : Thread nD τ).loc main_arg7)) shapeCasts_S1_S1x1 i := by
    show StableHlo.after hostOps0 (W0 m ρ c) (Proc.devRef .tc main_v2) = _
    after_results
    rfl
  rw [e]
  refine arr2_ext fun p q => ?_
  rw [cellOf, ofCoords_ix2]
  refine shapeCast_apply _ shapeCasts_S1_S1x1 (ix2 p q) (ix1 0) ?_
  rw [Shape.rowMajor_val_one, Shape.rowMajor_val_two]
  have := p.isLt; have := q.isLt
  show (0 : Nat) = p.val * 1 + q.val
  omega

/-! ## After the first pass -/

/-- The first pass reads the adjacency through an input window: the array is as the pass found it, which is as launched. -/
theorem W2_adj (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (W1_adj m ρ c)

/-- The column of inverse square roots of the degrees of the launched adjacency. -/
theorem W2_dcol (c : Dev nD) : (W2 m ρ c (Proc.devRef .tc main_v3_0) : Arr2 10000 1) = dinvCol (m ((c : Thread nD τ).loc main_arg1) : Arr2 10000 10000) :=
  ((W2_arr m ρ c 3).trans (final0_dinv (V1 m ρ) c)).trans (congrArg dinvCol (W1_adj m ρ c))

/-- The launched features times the launched first weights. -/
theorem W2_xw (c : Dev nD) : (W2 m ρ c (Proc.devRef .tc main_v3_1) : Arr2 10000 512) = dense (m ((c : Thread nD τ).loc main_arg0) : Arr2 10000 512) (m ((c : Thread nD τ).loc main_arg2) : Arr2 512 512) :=
  ((W2_arr m ρ c 4).trans (final0_dense (V1 m ρ) c)).trans (congrArg₂ dense (W1_feats m ρ c) (W1_w1 m ρ c))

theorem W2_b1 (c : Dev nD) : (W2 m ρ c (Proc.devRef .tc main_v0) : Arr2 1 512) = rowOf (m ((c : Thread nD τ).loc main_arg3) : Arr1 512) :=
  (W2_of_ne m ρ c main_v0 (by decide)).trans (W1_b1 m ρ c)
theorem W2_b2 (c : Dev nD) : (W2 m ρ c (Proc.devRef .tc main_v1) : Arr2 1 512) = rowOf (m ((c : Thread nD τ).loc main_arg5) : Arr1 512) :=
  (W2_of_ne m ρ c main_v1 (by decide)).trans (W1_b2 m ρ c)
theorem W2_bp (c : Dev nD) : (W2 m ρ c (Proc.devRef .tc main_v2) : Arr2 1 1) = cellOf (m ((c : Thread nD τ).loc main_arg7) : Arr1 1) :=
  (W2_of_ne m ρ c main_v2 (by decide)).trans (W1_bp m ρ c)
theorem W2_w2 (c : Dev nD) : W2 m ρ c (Proc.devRef .tc main_arg4) = m ((c : Thread nD τ).loc main_arg4) :=
  (W2_of_ne m ρ c main_arg4 (by decide)).trans (W1_w2 m ρ c)
theorem W2_wp (c : Dev nD) : W2 m ρ c (Proc.devRef .tc main_arg6) = m ((c : Thread nD τ).loc main_arg6) :=
  (W2_of_ne m ρ c main_arg6 (by decide)).trans (W1_wp m ρ c)

/-! ## After the second host stretch -/

/-- A buffer the second host stretch does not write holds what it held after the first pass. -/
theorem W3_keep (c : Dev nD) (b : Ref sig .tc)
    (h : ∀ op ∈ (hostOps1 : List (HloOp τ sig (Elt Ideal))), Proc.devRef .tc b ∉ op.writes) :
    W3 m ρ c (Proc.devRef .tc b) = W2 m ρ c (Proc.devRef .tc b) :=
  StableHlo.after_of_forall_not_mem (b := Proc.devRef .tc b) _ _ h

theorem V3_adj (c : Dev nD) : (V3 m ρ c main_arg1 : Arr2 10000 10000) = (m ((c : Thread nD τ).loc main_arg1) : Arr2 10000 10000) :=
  (W3_keep m ρ c main_arg1 (by unwritten)).trans (W2_adj m ρ c)
theorem V3_dcol (c : Dev nD) : (V3 m ρ c main_v3_0 : Arr2 10000 1) = dinvCol (m ((c : Thread nD τ).loc main_arg1) : Arr2 10000 10000) :=
  (W3_keep m ρ c main_v3_0 (by unwritten)).trans (W2_dcol m ρ c)
theorem V3_xw (c : Dev nD) : (V3 m ρ c main_v3_1 : Arr2 10000 512) = dense (m ((c : Thread nD τ).loc main_arg0) : Arr2 10000 512) (m ((c : Thread nD τ).loc main_arg2) : Arr2 512 512) :=
  (W3_keep m ρ c main_v3_1 (by unwritten)).trans (W2_xw m ρ c)
theorem V3_b1 (c : Dev nD) : (V3 m ρ c main_v0 : Arr2 1 512) = rowOf (m ((c : Thread nD τ).loc main_arg3) : Arr1 512) :=
  (W3_keep m ρ c main_v0 (by unwritten)).trans (W2_b1 m ρ c)
theorem W3_b2 (c : Dev nD) : (W3 m ρ c (Proc.devRef .tc main_v1) : Arr2 1 512) = rowOf (m ((c : Thread nD τ).loc main_arg5) : Arr1 512) :=
  (W3_keep m ρ c main_v1 (by unwritten)).trans (W2_b2 m ρ c)
theorem W3_bp (c : Dev nD) : (W3 m ρ c (Proc.devRef .tc main_v2) : Arr2 1 1) = cellOf (m ((c : Thread nD τ).loc main_arg7) : Arr1 1) :=
  (W3_keep m ρ c main_v2 (by unwritten)).trans (W2_bp m ρ c)
theorem W3_wp (c : Dev nD) : W3 m ρ c (Proc.devRef .tc main_arg6) = m ((c : Thread nD τ).loc main_arg6) :=
  (W3_keep m ρ c main_arg6 (by unwritten)).trans (W2_wp m ρ c)

/-- The column of inverse square roots reshaped to a row is the row of inverse square roots: entry j of the row
    is entry j of the column. -/
theorem V3_drow (c : Dev nD) : (V3 m ρ c main_v4 : Arr2 1 10000) = dinvRow (m ((c : Thread nD τ).loc main_arg1) : Arr2 10000 10000) := by
  have e : W3 m ρ c (Proc.devRef .tc main_v4) = fun i => shapeCast S1x10000 (W2 m ρ c (Proc.devRef .tc main_v3_0)) shapeCasts_S10000x1_S1x10000 i := by
    show StableHlo.after hostOps1 (W2 m ρ c) (Proc.devRef .tc main_v4) = _
    after_results
    rfl
  show (W3 m ρ c (Proc.devRef .tc main_v4) : Arr2 1 10000) = _
  rw [e]
  refine arr2_ext fun p q => ?_
  refine (shapeCast_apply (W2 m ρ c (Proc.devRef .tc main_v3_0) : Arr2 10000 1) shapeCasts_S10000x1_S1x10000 (ix2 p q) (ix2 q 0) ?_).trans ?_
  · show ((⟨2, ![10000, 1]⟩ : Shape).rowMajor (ix2 q (0 : Fin 1))).val = ((⟨2, ![1, 10000]⟩ : Shape).rowMajor (ix2 p q)).val
    rw [Shape.rowMajor_val_two, Shape.rowMajor_val_two]
    have := p.isLt
    show q.val * 1 + 0 = p.val * 10000 + q.val
    omega
  · rw [W2_dcol m ρ c]
    unfold dinvCol dinvRow
    rw [ofCoords_ix2, ofCoords_ix2]

/-- The second weight matrix after its change of float format is the launched matrix: over the extended reals a
    change of format is the identity. -/
theorem V3_w2 (c : Dev nD) : (V3 m ρ c main_v5 : Arr2 512 512) = (m ((c : Thread nD τ).loc main_arg4) : Arr2 512 512) := by
  show StableHlo.after hostOps1 (W2 m ρ c) (Proc.devRef .tc main_v5) = _
  after_results
  exact W2_w2 m ρ c

/-! ## After the second pass -/

theorem V4_adj (c : Dev nD) : (V4 m ρ c main_arg1 : Arr2 10000 10000) = (m ((c : Thread nD τ).loc main_arg1) : Arr2 10000 10000) :=
  ((W4_arr m ρ c 0).trans (((dat1 (V3 m ρ) c).arrAt_in 0 rfl _).trans (A_eq1 (V3 m ρ) c 0))).trans (V3_adj m ρ c)
theorem V4_dcol (c : Dev nD) : (V4 m ρ c main_v3_0 : Arr2 10000 1) = dinvCol (m ((c : Thread nD τ).loc main_arg1) : Arr2 10000 10000) :=
  ((W4_arr m ρ c 1).trans (((dat1 (V3 m ρ) c).arrAt_in 1 rfl _).trans (A_eq1 (V3 m ρ) c 1))).trans (V3_dcol m ρ c)
theorem V4_drow (c : Dev nD) : (V4 m ρ c main_v4 : Arr2 1 10000) = dinvRow (m ((c : Thread nD τ).loc main_arg1) : Arr2 10000 10000) :=
  ((W4_arr m ρ c 2).trans (((dat1 (V3 m ρ) c).arrAt_in 2 rfl _).trans (A_eq1 (V3 m ρ) c 2))).trans (V3_drow m ρ c)

/-- The second pass's output: the first layer of the launched arguments, times the launched second weights. -/
theorem V4_feat (c : Dev nD) : (V4 m ρ c main_v6 : Arr2 10000 512) = dense (layer (m ((c : Thread nD τ).loc main_arg1) : Arr2 10000 10000) (dinvCol (m ((c : Thread nD τ).loc main_arg1) : Arr2 10000 10000)) (dinvRow (m ((c : Thread nD τ).loc main_arg1) : Arr2 10000 10000)) (dense (m ((c : Thread nD τ).loc main_arg0) : Arr2 10000 512) (m ((c : Thread nD τ).loc main_arg2) : Arr2 512 512)) (rowOf (m ((c : Thread nD τ).loc main_arg3) : Arr1 512))) (m ((c : Thread nD τ).loc main_arg4) : Arr2 512 512) := by
  refine ((W4_arr m ρ c 6).trans (final1 (V3 m ρ) c)).trans ?_
  rw [V3_adj m ρ c, V3_dcol m ρ c, V3_drow m ρ c, V3_xw m ρ c, V3_b1 m ρ c, V3_w2 m ρ c]

theorem V4_b2 (c : Dev nD) : (V4 m ρ c main_v1 : Arr2 1 512) = rowOf (m ((c : Thread nD τ).loc main_arg5) : Arr1 512) :=
  (W4_of_ne m ρ c main_v1 (by decide)).trans (W3_b2 m ρ c)
theorem V4_bp (c : Dev nD) : (V4 m ρ c main_v2 : Arr2 1 1) = cellOf (m ((c : Thread nD τ).loc main_arg7) : Arr1 1) :=
  (W4_of_ne m ρ c main_v2 (by decide)).trans (W3_bp m ρ c)
theorem V4_wp (c : Dev nD) : (V4 m ρ c main_arg6 : Arr2 512 1) = (m ((c : Thread nD τ).loc main_arg6) : Arr2 512 1) :=
  (W4_of_ne m ρ c main_arg6 (by decide)).trans (W3_wp m ρ c)

/-! ## After the third pass -/

/-- The result buffer at the last boundary: the three passes composed, applied to the launch arguments. -/
theorem W5_result (c : Dev nD) :
    (W5 m ρ c (Proc.devRef .tc main_v7) : Arr2 10000 1) = head (layer (m ((c : Thread nD τ).loc main_arg1) : Arr2 10000 10000) (dinvCol (m ((c : Thread nD τ).loc main_arg1) : Arr2 10000 10000)) (dinvRow (m ((c : Thread nD τ).loc main_arg1) : Arr2 10000 10000)) (dense (layer (m ((c : Thread nD τ).loc main_arg1) : Arr2 10000 10000) (dinvCol (m ((c : Thread nD τ).loc main_arg1) : Arr2 10000 10000)) (dinvRow (m ((c : Thread nD τ).loc main_arg1) : Arr2 10000 10000)) (dense (m ((c : Thread nD τ).loc main_arg0) : Arr2 10000 512) (m ((c : Thread nD τ).loc main_arg2) : Arr2 512 512)) (rowOf (m ((c : Thread nD τ).loc main_arg3) : Arr1 512))) (m ((c : Thread nD τ).loc main_arg4) : Arr2 512 512)) (rowOf (m ((c : Thread nD τ).loc main_arg5) : Arr1 512))) (m ((c : Thread nD τ).loc main_arg6) : Arr2 512 1) (cellOf (m ((c : Thread nD τ).loc main_arg7) : Arr1 1)) := by
  refine ((W5_arr m ρ c 7).trans (final2 (V4 m ρ) c)).trans ?_
  rw [V4_adj m ρ c, V4_dcol m ρ c, V4_drow m ρ c, V4_feat m ρ c, V4_b2 m ρ c, V4_wp m ρ c, V4_bp m ρ c]

end Cert.KernelIdeal.Bridge

end
-- ==== Proof.RefStages.lean ====
/-
  The reference program's stages, read over the extended reals, are the pass functions of `Passes` composed:
  its two broadcasts of the inverse square roots of the degrees are the column and the row, its first matrix
  product is the dense product of the features with the first weights, and its result is the head of the second
  layer over the dense product of the first layer with the second weights.
-/
import proofs.«102826_g53249004536087_cont_9to1_m_742_18_alg».proof.Proof.Gen.ReferenceIdeal.Read
import proofs.«102826_g53249004536087_cont_9to1_m_742_18_alg».proof.Proof.Passes

noncomputable section

namespace Cert.ReferenceIdeal.Bridge

open Cert.ReferenceIdeal Cert.ReferenceIdeal.Read Cert.Bridge
open Idealize.ShloMosaic Idealize.ShloMosaic.ValueIdx

/-- The vector of inverse square roots of the shifted degrees at row `p`: the sum of row `p` of the adjacency
    (a sum from the initial value zero), plus the shift, under the inverse square root. -/
theorem v3_at (adj : Arr2 10000 10000) (p : Fin 10000) : val_main_v3 (F := Ideal) adj (ix1 p) = dinv adj p := by
  have e0 : ∀ k, idx_main_v0 (ix1 p) k = ix2 p k := fun k =>
    funext fun a => Fin.ext (by match a with | ⟨0, _⟩ => rfl | ⟨1, _⟩ => rfl)
  rw [val_main_v3_apply, val_main_v2_apply, val_main_v0_apply, val_main_v1_apply, val_main_cst_0_apply, val_main_cst_apply]
  simp only [Ideal.hostUnary_rsqrt_def, Ideal.addf_def, Ideal.ofBits_def, Ideal.ofBits_zero_f32, zero_add, e0]
  rfl

/-- The inverse square roots of the degrees, broadcast as a column. -/
theorem ref_dinvCol (adj : Arr2 10000 10000) : val_main_v4 (F := Ideal) adj = dinvCol adj := by
  refine arr2_ext fun p q => ?_
  have e4 : idx_main_v4 (ix2 p q) = ix1 p := funext fun a => Fin.ext (by match a with | ⟨0, _⟩ => rfl)
  rw [val_main_v4_apply, e4, v3_at]
  rfl

/-- The inverse square roots of the degrees, broadcast as a row. -/
theorem ref_dinvRow (adj : Arr2 10000 10000) : val_main_v7 (F := Ideal) adj = dinvRow adj := by
  refine arr2_ext fun p q => ?_
  have e7 : idx_main_v7 (ix2 p q) = ix1 q := funext fun a => Fin.ext (by match a with | ⟨0, _⟩ => rfl)
  rw [val_main_v7_apply, e7, v3_at]
  rfl

/-- The first matrix product. -/
theorem ref_dense (feats : Arr2 10000 512) (w1 : Arr2 512 512) : val_main_v10 (F := Ideal) feats w1 = dense feats w1 := by
  refine arr2_ext fun p q => ?_
  rw [val_main_v10_apply]
  unfold dense
  rw [ofCoords_ix2]
  refine Finset.sum_congr rfl fun k _ => ?_
  have el : lidx_main_v10 (ix2 p q) k = ix2 p k := funext fun a => Fin.ext (by match a with | ⟨0, _⟩ => rfl | ⟨1, _⟩ => rfl)
  have er : ridx_main_v10 (ix2 p q) k = ix2 k q := funext fun a => Fin.ext (by match a with | ⟨0, _⟩ => rfl | ⟨1, _⟩ => rfl)
  rw [el, er]

/-- An entry of the normalised adjacency: the adjacency entry times the column entry of its row times the row entry
    of its column. -/
theorem v9_at (adj : Arr2 10000 10000) (p j : Fin 10000) :
    val_main_v9 (F := Ideal) adj (ix2 p j) = (adj (ix2 p j) * dinvCol adj (ix2 p 0)) * dinvRow adj (ix2 0 j) := by
  have e5 : idx_main_v5 (ix2 p j) = ix2 p (0 : Fin 1) :=
    funext fun a => Fin.ext (by match a with | ⟨0, _⟩ => rfl | ⟨1, _⟩ => rfl)
  have e8 : idx_main_v8 (ix2 p j) = ix2 (0 : Fin 1) j :=
    funext fun a => Fin.ext (by match a with | ⟨0, _⟩ => rfl | ⟨1, _⟩ => rfl)
  rw [val_main_v9_apply, val_main_v6_apply, val_main_v5_apply, val_main_v8_apply, e5, e8, ref_dinvCol, ref_dinvRow]
  rfl

/-- A layer read at an entry: the product of the normalised adjacency with the features, plus the bias of the
    column, cut below at zero. -/
theorem layer_at (adj : Arr2 10000 10000) (v : Arr2 10000 512) (b : Arr1 512) (p : Fin 10000) (q : Fin 512) :
    max ((∑ k : Fin 10000, val_main_v9 (F := Ideal) adj (ix2 p k) * v (ix2 k q)) + b (ix1 q)) 0
      = layer adj (dinvCol adj) (dinvRow adj) v (rowOf b) (ix2 p q) := by
  unfold layer
  rw [ofCoords_ix2]
  refine congrArg (fun s => max (s + b (ix1 q)) 0) (Finset.sum_congr rfl fun k _ => ?_)
  rw [v9_at]

/-- The first layer's output. -/
theorem v15_eq (feats : Arr2 10000 512) (adj : Arr2 10000 10000) (w1 : Arr2 512 512) (b1 : Arr1 512) :
    val_main_v15 (F := Ideal) feats adj w1 b1 = layer adj (dinvCol adj) (dinvRow adj) (dense feats w1) (rowOf b1) := by
  refine arr2_ext fun p q => ?_
  have el : ∀ k, lidx_main_v11 (ix2 p q) k = ix2 p k := fun k =>
    funext fun a => Fin.ext (by match a with | ⟨0, _⟩ => rfl | ⟨1, _⟩ => rfl)
  have er : ∀ k, ridx_main_v11 (ix2 p q) k = ix2 k q := fun k =>
    funext fun a => Fin.ext (by match a with | ⟨0, _⟩ => rfl | ⟨1, _⟩ => rfl)
  have eb : idx_main_v12 (idx_main_v13 (ix2 p q)) = ix1 q := funext fun a => Fin.ext (by match a with | ⟨0, _⟩ => rfl)
  rw [val_main_v15_apply, val_main_v14_apply, val_main_v11_apply, val_main_v13_apply, val_main_v12_apply,
    val_main_call0_v0_apply, val_main_call0_cst_apply, ref_dense, eb]
  simp only [Ideal.maximumf_def, Ideal.addf_def, Ideal.ofBits_def, Ideal.ofBits_zero_f32, el, er]
  exact layer_at adj (dense feats w1) b1 p q

/-- The second matrix product: the first layer's output times the second weights. -/
theorem v16_eq (feats : Arr2 10000 512) (adj : Arr2 10000 10000) (w1 : Arr2 512 512) (b1 : Arr1 512) (w2 : Arr2 512 512) :
    val_main_v16 (F := Ideal) feats adj w1 b1 w2
      = dense (layer adj (dinvCol adj) (dinvRow adj) (dense feats w1) (rowOf b1)) w2 := by
  refine arr2_ext fun p q => ?_
  rw [val_main_v16_apply, v15_eq]
  unfold dense
  rw [ofCoords_ix2]
  refine Finset.sum_congr rfl fun k _ => ?_
  have el : lidx_main_v16 (ix2 p q) k = ix2 p k := funext fun a => Fin.ext (by match a with | ⟨0, _⟩ => rfl | ⟨1, _⟩ => rfl)
  have er : ridx_main_v16 (ix2 p q) k = ix2 k q := funext fun a => Fin.ext (by match a with | ⟨0, _⟩ => rfl | ⟨1, _⟩ => rfl)
  rw [el, er]

/-- The second layer's output. -/
theorem v21_eq (feats : Arr2 10000 512) (adj : Arr2 10000 10000) (w1 : Arr2 512 512) (b1 : Arr1 512) (w2 : Arr2 512 512)
    (b2 : Arr1 512) :
    val_main_v21 (F := Ideal) feats adj w1 b1 w2 b2
      = layer adj (dinvCol adj) (dinvRow adj)
          (dense (layer adj (dinvCol adj) (dinvRow adj) (dense feats w1) (rowOf b1)) w2) (rowOf b2) := by
  refine arr2_ext fun p q => ?_
  have el : ∀ k, lidx_main_v17 (ix2 p q) k = ix2 p k := fun k =>
    funext fun a => Fin.ext (by match a with | ⟨0, _⟩ => rfl | ⟨1, _⟩ => rfl)
  have er : ∀ k, ridx_main_v17 (ix2 p q) k = ix2 k q := fun k =>
    funext fun a => Fin.ext (by match a with | ⟨0, _⟩ => rfl | ⟨1, _⟩ => rfl)
  have eb : idx_main_v18 (idx_main_v19 (ix2 p q)) = ix1 q := funext fun a => Fin.ext (by match a with | ⟨0, _⟩ => rfl)
  rw [val_main_v21_apply, val_main_v20_apply, val_main_v17_apply, val_main_v19_apply, val_main_v18_apply,
    val_main_call1_v0_apply, val_main_call1_cst_apply, v16_eq, eb]
  simp only [Ideal.maximumf_def, Ideal.addf_def, Ideal.ofBits_def, Ideal.ofBits_zero_f32, el, er]
  exact layer_at adj _ b2 p q

/-- The whole reference: two propagation layers and the head. -/
theorem ref_out (feats : Arr2 10000 512) (adj : Arr2 10000 10000) (w1 : Arr2 512 512) (b1 : Arr1 512) (w2 : Arr2 512 512)
    (b2 : Arr1 512) (wp : Arr2 512 1) (bp : Arr1 1) :
    val_main_v25 (F := Ideal) feats adj w1 b1 w2 b2 wp bp
      = head (layer adj (dinvCol adj) (dinvRow adj)
          (dense (layer adj (dinvCol adj) (dinvRow adj) (dense feats w1) (rowOf b1)) w2) (rowOf b2)) wp (cellOf bp) := by
  refine arr2_ext fun p q => ?_
  have el : ∀ k, lidx_main_v22 (ix2 p q) k = ix2 p k := fun k =>
    funext fun a => Fin.ext (by match a with | ⟨0, _⟩ => rfl | ⟨1, _⟩ => rfl)
  have er : ∀ k, ridx_main_v22 (ix2 p q) k = ix2 k q := fun k =>
    funext fun a => Fin.ext (by match a with | ⟨0, _⟩ => rfl | ⟨1, _⟩ => rfl)
  have eb : idx_main_v23 (idx_main_v24 (ix2 p q)) = ix1 (0 : Fin 1) :=
    funext fun a => Fin.ext (by match a with | ⟨0, _⟩ => rfl)
  rw [val_main_v25_apply, val_main_v22_apply, val_main_v24_apply, val_main_v23_apply, v21_eq, eb]
  simp only [Ideal.addf_def, el, er]
  rfl

end Cert.ReferenceIdeal.Bridge

end
-- ==== Proof.lean ====
/-
  A two-layer graph convolution with a linear head, computed in three passes over row blocks, against the
  same network written with whole-array operations; both are read over the extended reals, where every float
  operation is exact and a change of float format is the identity.

  With A the adjacency matrix, d_i = rsqrt (sum_k A_ik + eps) and N_ij = (A_ij * d_i) * d_j, the network is
      H1 = max (N @ (X @ W1) + b1) 0,   H2 = max (N @ (H1 @ W2) + b2) 0,   result = H2 @ Wp + bp.
  The three passes compute, on blocks of 400 rows: d as a column and X @ W1; then H1 @ W2, forming the rows of
  N on the fly; then the result, forming the same rows of N again. Both programs multiply A_ij by d_i first
  and by d_j second, add the same single-precision constant eps, and sum each matrix product over the whole
  contracted axis, so the two results are the same expression entry by entry: the proof reorders nothing and
  uses no law of the extended reals beyond reading each operation at an index, and so it never needs the
  inputs to be finite. Every step of it is row-locality: row p of each pass's output depends on row p of the
  row-blocked inputs only, so the blocks a grid writes back are the blocks of one whole-array function
  (`Passes`, `Blocks0`, `Blocks1`, `Blocks2`), the arrays are handed from pass to pass through two short
  stretches of reshapes (`Boundary`), and the reference's stages are the same functions (`RefStages`).

  The frames: each program terminates without a fault on every weakly fair execution and leaves its arguments
  unchanged. The idealized kernel is the kernel's own text read over the extended reals (no operation was
  rewritten), so there is nothing to preserve beyond that.
-/
import proofs.«102826_g53249004536087_cont_9to1_m_742_18_alg».proof.Defs
import proofs.«102826_g53249004536087_cont_9to1_m_742_18_alg».proof.Proof.Gen.Kernel
import proofs.«102826_g53249004536087_cont_9to1_m_742_18_alg».proof.Proof.Gen.Kernel.Skeleton
import proofs.«102826_g53249004536087_cont_9to1_m_742_18_alg».proof.Proof.Gen.Kernel.Launch
import proofs.«102826_g53249004536087_cont_9to1_m_742_18_alg».proof.Proof.Gen.Kernel.Points
import proofs.«102826_g53249004536087_cont_9to1_m_742_18_alg».proof.Proof.Gen.Kernel.Frame
import proofs.«102826_g53249004536087_cont_9to1_m_742_18_alg».proof.Proof.Gen.KernelIdeal
import proofs.«102826_g53249004536087_cont_9to1_m_742_18_alg».proof.Proof.Gen.KernelIdeal.Skeleton
import proofs.«102826_g53249004536087_cont_9to1_m_742_18_alg».proof.Proof.Gen.KernelIdeal.Launch
import proofs.«102826_g53249004536087_cont_9to1_m_742_18_alg».proof.Proof.Gen.KernelIdeal.Points
import proofs.«102826_g53249004536087_cont_9to1_m_742_18_alg».proof.Proof.Gen.KernelIdeal.Frame
import proofs.«102826_g53249004536087_cont_9to1_m_742_18_alg».proof.Proof.Gen.ReferenceIdeal
import proofs.«102826_g53249004536087_cont_9to1_m_742_18_alg».proof.Proof.Gen.ReferenceIdeal.Run
import proofs.«102826_g53249004536087_cont_9to1_m_742_18_alg».proof.Proof.Gen.ReferenceIdeal.Read
import proofs.«102826_g53249004536087_cont_9to1_m_742_18_alg».proof.Proof.Gen.Pre_finite_inputs
import proofs.«102826_g53249004536087_cont_9to1_m_742_18_alg».proof.Proof.KernelRun
import proofs.«102826_g53249004536087_cont_9to1_m_742_18_alg».proof.Proof.Boundary
import proofs.«102826_g53249004536087_cont_9to1_m_742_18_alg».proof.Proof.RefStages
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments unchanged. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- The reference is a straight line of whole-array operations: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the eight arguments both programs end with the same result array: the kernel's
    is the three passes composed, applied to its arguments (`Boundary`), the reference's is the same
    composition applied to its own (`RefStages`), and the arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W5 m ρ c (Proc.devRef .tc Cert.KernelIdeal.main_v7),
    Cert.KernelIdeal.Bridge.run_result m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq _ _ _ _ _ _ _ _).trans ?_
  refine (Cert.ReferenceIdeal.Bridge.ref_out _ _ _ _ _ _ _ _).trans ?_
  obtain ⟨a0, a1, a2, a3, a4, a5, a6, a7⟩ := hagree c
  rw [a0, a1, a2, a3, a4, a5, a6, a7]
  exact (Cert.KernelIdeal.Bridge.W5_result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
